-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S256x256 : Shape := ⟨2, ![256, 256]⟩
abbrev S256 : Shape := ⟨1, ![256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg7 : FVec F S256x256 .f32) (main_arg8 : FVec F S256 .f32) (main_arg9 : FVec F S256 .f32) (main_arg10 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg4 : FVec F S256x256 .f32) (main_arg5 : FVec F S256x256 .f32) (main_arg6 : FVec F S256x256 .f32) (main_arg7 : FVec F S256x256 .f32) (main_arg8 : FVec F S256 .f32) (main_arg9 : FVec F S256 .f32) (main_arg10 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S65536x256 .f32) (main_arg1 : FVec F S65536x256 .f32) (main_arg2 : FVec F S256x256 .f32) (main_arg3 : FVec F S256x256 .f32) (main_arg4 : FVec F S256x256 .f32) (main_arg5 : FVec F S256x256 .f32) (main_arg6 : FVec F S256x256 .f32) (main_arg7 : FVec F S256x256 .f32) (main_arg8 : FVec F S256 .f32) (main_arg9 : FVec F S256 .f32) (main_arg10 : FVec F S256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_v13 main_v16
-- ==== Kernel.lean ====
abbrev S65536x256 : Shape := ⟨2, ![65536, 256]⟩
abbrev S256x256 : Shape := ⟨2, ![256, 256]⟩
abbrev S256 : Shape := ⟨1, ![256]⟩
abbrev S256x768 : Shape := ⟨2, ![256, 768]⟩
abbrev S256x512 : Shape := ⟨2, ![256, 512]⟩
abbrev S1x256 : Shape := ⟨2, ![1, 256]⟩
abbrev S2048x256 : Shape := ⟨2, ![2048, 256]⟩
abbrev S2048x768 : Shape := ⟨2, ![2048, 768]⟩
abbrev S2048x512 : Shape := ⟨2, ![2048, 512]⟩

abbrev nBuf : Space → Nat
  | .hbm => 20
  | .vmem => 12
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256x768, .f32⟩
  | .hbm, ⟨12, _⟩ => ⟨S256x768, .bf16⟩
  | .hbm, ⟨13, _⟩ => ⟨S256x512, .f32⟩
  | .hbm, ⟨14, _⟩ => ⟨S256x512, .bf16⟩
  | .hbm, ⟨15, _⟩ => ⟨S256x256, .bf16⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S65536x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S256x768, .bf16⟩
  | .local _ .vmem, ⟨5, _⟩ => ⟨S256x512, .bf16⟩
  | .local _ .vmem, ⟨6, _⟩ => ⟨S256x256, .bf16⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S2048x256, .f32⟩
  | .local _ .vmem, ⟨11, _⟩ => ⟨S2048x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  concatenates_S256x256_S256x256_S256x256_S256x768_d1 : Shape.Concatenates [S256x256, S256x256, S256x256] S256x768 1
  bitsLt_bf16_f32 : FTy.bits .bf16 < FTy.bits .f32
  concatenates_S256x256_S256x256_S256x512_d1 : Shape.Concatenates [S256x256, S256x256] S256x512 1
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S256x512_S256x512_0_0 : ∀ a, (![0, 0] : Fin 2 → Nat) a + S256x512.size a ≤ S256x512.size a
  h_S256x512 : 0 < S256x512.numel
  shapeCasts_S256x512_S256x512 : S256x512.ShapeCasts S256x512
  slices_S2048x768_o0_0_S2048x256 : S2048x768.Slices ![0, 0] S2048x256
  slices_S2048x512_o0_0_S2048x256 : S2048x512.Slices ![0, 0] S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  slices_S2048x768_o0_256_S2048x256 : S2048x768.Slices ![0, 256] S2048x256
  slices_S2048x512_o0_256_S2048x256 : S2048x512.Slices ![0, 256] S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S2048x768_o0_512_S2048x256 : S2048x768.Slices ![0, 512] S2048x256
  dot_S2048x256_S256x768_S2048x768_1_0_0_1_n_n_wf : DotDims.WF S2048x256 S256x768 S2048x768 [1] [0] [0] [1] [] []
  dot_S2048x256_S256x512_S2048x512_1_0_0_1_n_n_wf : DotDims.WF S2048x256 S256x512 S2048x512 [1] [0] [0] [1] [] []
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S65536x256.size a
  hwx0_1 : ∀ i : grid0.Coords, EltTy.bits .f32 = 32 ∨ (Rect.block (s := S65536x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x768.size a ≤ S256x768.size a
  hwx0_2 : ∀ i : grid0.Coords, EltTy.bits .bf16 = 32 ∨ (Rect.block (s := S256x768) S256x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x256.size a ≤ S65536x256.size a
  hwx0_8 : ∀ i : grid0.Coords, EltTy.bits .f32 = 32 ∨ (Rect.block (s := S65536x256) S2048x256.size (cc0_transform_8 i) (hinb0_8 i)).WholeWords (EltTy.packing .f32)

variable [Facts₀]

def dot_S2048x256_S256x768_S2048x768_1_0_0_1_n_n : DotDims S2048x256 S256x768 S2048x768 where
  lhsContracting := [1]
  rhsContracting := [0]
  lhsNonContracting := [0]
  rhsNonContracting := [1]
  lhsBatch := []
  rhsBatch := []
  wf := dot_S2048x256_S256x768_S2048x768_1_0_0_1_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S2048x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S65536x256 : Shape := ⟨2, ![65536, 256]⟩
abbrev S256x256 : Shape := ⟨2, ![256, 256]⟩
abbrev S256 : Shape := ⟨1, ![256]⟩
abbrev S256x768 : Shape := ⟨2, ![256, 768]⟩
abbrev S256x512 : Shape := ⟨2, ![256, 512]⟩
abbrev S65536x768 : Shape := ⟨2, ![65536, 768]⟩
abbrev S65536x512 : Shape := ⟨2, ![65536, 512]⟩
abbrev S1x256 : Shape := ⟨2, ![1, 256]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256x768, .f32⟩
  | .hbm, ⟨12, _⟩ => ⟨S256x512, .f32⟩
  | .hbm, ⟨13, _⟩ => ⟨S65536x768, .f32⟩
  | .hbm, ⟨14, _⟩ => ⟨S65536x512, .f32⟩
  | .hbm, ⟨15, _⟩ => ⟨S65536x256, .f32⟩
  | .hbm, ⟨16, _⟩ => ⟨S65536x256, .f32⟩
  | .hbm, ⟨17, _⟩ => ⟨S65536x256, .f32⟩
  | .hbm, ⟨18, _⟩ => ⟨S1x256, .f32⟩
  | .hbm, ⟨19, _⟩ => ⟨S65536x256, .f32⟩
  | .hbm, ⟨20, _⟩ => ⟨S65536x256, .f32⟩
  | .hbm, ⟨21, _⟩ => ⟨S65536x256, .f32⟩
  | .hbm, ⟨22, _⟩ => ⟨S65536x256, .f32⟩
  | .hbm, ⟨23, _⟩ => ⟨S_, .f32⟩
  | .hbm, ⟨24, _⟩ => ⟨S65536x256, .f32⟩
  | .hbm, ⟨25, _⟩ => ⟨S65536x256, .f32⟩
  | .hbm, ⟨26, _⟩ => ⟨S_, .f32⟩
  | .hbm, ⟨27, _⟩ => ⟨S65536x256, .f32⟩
  | .hbm, ⟨28, _⟩ => ⟨S65536x256, .f32⟩
  | .hbm, ⟨29, _⟩ => ⟨S65536x256, .f32⟩
  | .hbm, ⟨30, _⟩ => ⟨S65536x256, .f32⟩
  | .hbm, ⟨31, _⟩ => ⟨S65536x256, .f32⟩
  | .hbm, ⟨32, _⟩ => ⟨S1x256, .f32⟩
  | .hbm, ⟨33, _⟩ => ⟨S65536x256, .f32⟩
  | .hbm, ⟨34, _⟩ => ⟨S65536x256, .f32⟩
  | .hbm, ⟨35, _⟩ => ⟨S65536x256, .f32⟩
  | .hbm, ⟨36, _⟩ => ⟨S65536x256, .f32⟩
  | .hbm, ⟨37, _⟩ => ⟨S_, .f32⟩
  | .hbm, ⟨38, _⟩ => ⟨S65536x256, .f32⟩
  | .hbm, ⟨39, _⟩ => ⟨S65536x256, .f32⟩
  | .hbm, ⟨40, _⟩ => ⟨S_, .f32⟩
  | .hbm, ⟨41, _⟩ => ⟨S65536x256, .f32⟩
  | .hbm, ⟨42, _⟩ => ⟨S65536x256, .f32⟩
  | .hbm, ⟨43, _⟩ => ⟨S65536x256, .f32⟩
  | .hbm, ⟨44, _⟩ => ⟨S65536x256, .f32⟩
  | .hbm, ⟨45, _⟩ => ⟨S65536x256, .f32⟩
  | .hbm, ⟨46, _⟩ => ⟨S65536x256, .f32⟩
  | .hbm, ⟨47, _⟩ => ⟨S1x256, .f32⟩
  | .hbm, ⟨48, _⟩ => ⟨S65536x256, .f32⟩
  | .hbm, ⟨49, _⟩ => ⟨S65536x256, .f32⟩
  | .hbm, ⟨50, _⟩ => ⟨S65536x256, .f32⟩
  | .hbm, ⟨51, _⟩ => ⟨S65536x256, .f32⟩
  | .hbm, ⟨52, _⟩ => ⟨S65536x256, .f32⟩
  | .hbm, ⟨53, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]

class Facts₀ : Prop where
  concatenates_S256x256_S256x256_S256x256_S256x768_d1 : Shape.Concatenates [S256x256, S256x256, S256x256] S256x768 1
  concatenates_S256x256_S256x256_S256x512_d1 : Shape.Concatenates [S256x256, S256x256] S256x512 1
  slices_S65536x768_S65536x256_0_0 : S65536x768.Slices ![0, 0] S65536x256
  slices_S65536x512_S65536x256_0_0 : S65536x512.Slices ![0, 0] S65536x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  slices_S65536x768_S65536x256_0_256 : S65536x768.Slices ![0, 256] S65536x256
  slices_S65536x512_S65536x256_0_256 : S65536x512.Slices ![0, 256] S65536x256
  slices_S65536x768_S65536x256_0_512 : S65536x768.Slices ![0, 512] S65536x256
  dot_S65536x256_S256x768_S65536x768_1_0_0_1_n_n_wf : DotDims.WF S65536x256 S256x768 S65536x768 [1] [0] [0] [1] [] []
  dot_S65536x256_S256x512_S65536x512_1_0_0_1_n_n_wf : DotDims.WF S65536x256 S256x512 S65536x512 [1] [0] [0] [1] [] []
  dot_S65536x256_S256x256_S65536x256_1_0_0_1_n_n_wf : DotDims.WF S65536x256 S256x256 S65536x256 [1] [0] [0] [1] [] []

variable [Facts₀]

def dot_S65536x256_S256x768_S65536x768_1_0_0_1_n_n : DotDims S65536x256 S256x768 S65536x768 where
  lhsContracting := [1]
  rhsContracting := [0]
  lhsNonContracting := [0]
  rhsNonContracting := [1]
  lhsBatch := []
  rhsBatch := []
  wf := dot_S65536x256_S256x768_S65536x768_1_0_0_1_n_n_wf
def dot_S65536x256_S256x512_S65536x512_1_0_0_1_n_n : DotDims S65536x256 S256x512 S65536x512 where
  lhsContracting := [1]
  rhsContracting := [0]
  lhsNonContracting := [0]
  rhsNonContracting := [1]
  lhsBatch := []
  rhsBatch := []
  wf := dot_S65536x256_S256x512_S65536x512_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf

class Facts : Prop extends Facts₀ where

variable [Facts]
-- ==== Proof.FrameBits.lean ====
/-
  The frame of the GRU-cell program: @main is eight host operations (two concatenations of weight matrices, three
  changes of float format, three reshapes of a bias vector to a row), then ONE pallas_call over 32 grid points. At
  point t the call stages rows [2048·t, 2048·t + 2048) of the two [65536, 256] inputs, the five whole weight and bias
  arrays (fetched once, at the first point), runs the body, and writes the [2048, 256] result block back to rows
  [2048·t, 2048·t + 2048) of the result array.
  The body only loads whole staging buffers, computes, and stores the whole output buffer once; so after the body the
  output buffer holds one pure function of the eight input blocks (`cellBlock`), every input buffer still holds its
  block, and nothing else is touched. This module states that as the pipeline's proof data, proves the body's triple,
  and obtains the run of @main: it terminates without a fault, every argument array ends as launched, and the result
  array is what the library assembles from the blocks written back. Everything here holds at any float instance.
-/
import proofs.«180699_j75531294867991_2_alg».proof.Proof.Gen.Kernel.Launch
import proofs.«180699_j75531294867991_2_alg».proof.Proof.Gen.Kernel.Skeleton
import proofs.«180699_j75531294867991_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gru

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the pallas_call -/

/-- What core `c`'s buffers hold when the pallas_call is entered: the launch contents after the eight host operations. -/
abbrev atEntry (c : Dev nD) (b : Ref sig .tc) : Buf (Elt F) ((c : Thread nD τ).loc b) :=
  StableHlo.after (List.flatten [hostOps0]) (fun b => m (c, b)) b

/-- The host operations allocate nothing. -/
theorem hostOps0_fresh : (hostOps0 : List (HloOp τ sig (Elt F))).Forall fun op => op.fresh = ∅ := by
  simp only [List.Forall]; repeat' constructor

/-- @main is the host operations followed by the pallas_call, so the call is entered at `atEntry`. -/
theorem main_upto_call (𝒱₀ : Variants) :
    Pipeline.HMain (Ix := Unit) (Name := ℕ) (U := UR sig nD τ) (Lvl := ℕ) cfgs 0 defs₀ 𝒱₀ m (main (F := F)) (atEntry m) :=
  Pipeline.hmain_prefixes cfgs 0 defs₀ 𝒱₀ m main [hostOps0] (by simp only [List.Forall]; exact hostOps0_sub)
    (by simp only [List.Forall]; exact hostOps0_fresh) main_chain

/-- Each host operation writes only its own result buffer, so argument 0 is found as launched. -/
theorem atEntry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result buffer, so argument 1 is found as launched. -/
theorem atEntry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result buffer, so argument 2 is found as launched. -/
theorem atEntry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result buffer, so argument 3 is found as launched. -/
theorem atEntry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result buffer, so argument 4 is found as launched. -/
theorem atEntry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result buffer, so argument 5 is found as launched. -/
theorem atEntry_arg5 (c : Dev nD) : atEntry m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result buffer, so argument 6 is found as launched. -/
theorem atEntry_arg6 (c : Dev nD) : atEntry m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result buffer, so argument 7 is found as launched. -/
theorem atEntry_arg7 (c : Dev nD) : atEntry m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result buffer, so argument 8 is found as launched. -/
theorem atEntry_arg8 (c : Dev nD) : atEntry m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result buffer, so argument 9 is found as launched. -/
theorem atEntry_arg9 (c : Dev nD) : atEntry m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result buffer, so argument 10 is found as launched. -/
theorem atEntry_arg10 (c : Dev nD) : atEntry m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))

/-! ## The blocks -/

/-- Window `w`'s block at grid point `t`, read off its array as the call finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- Input window 0's current staging buffer holds its block at every point — at a point that does not fetch it the
    block index has not moved since the fetch —, for any proof data over the entry contents whose body leaves the
    block in place. -/
theorem staged0_of {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's current staging buffer holds its block at every point — at a point that does not fetch it the
    block index has not moved since the fetch —, for any proof data over the entry contents whose body leaves the
    block in place. -/
theorem staged1_of {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's current staging buffer holds its block at every point — at a point that does not fetch it the
    block index has not moved since the fetch —, for any proof data over the entry contents whose body leaves the
    block in place. -/
theorem staged2_of {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's current staging buffer holds its block at every point — at a point that does not fetch it the
    block index has not moved since the fetch —, for any proof data over the entry contents whose body leaves the
    block in place. -/
theorem staged3_of {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's current staging buffer holds its block at every point — at a point that does not fetch it the
    block index has not moved since the fetch —, for any proof data over the entry contents whose body leaves the
    block in place. -/
theorem staged4_of {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input window 5's current staging buffer holds its block at every point — at a point that does not fetch it the
    block index has not moved since the fetch —, for any proof data over the entry contents whose body leaves the
    block in place. -/
theorem staged5_of {c : Dev nD} (dat : Dat τ (Elt F) Unit ℕ (UR sig nD τ) ℕ cfg0 c) (hA : dat.A 5 = atEntry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
/-- Input window 6's current staging buffer holds its block at every point — at a point that does not fetch it the
    block index has not moved since the fetch —, for any proof data over the entry contents whose body leaves the
    block in place. -/
theorem staged6_of {c : Dev nD} (dat : Dat τ (Elt F) Unit ℕ (UR sig nD τ) ℕ cfg0 c) (hA : dat.A 6 = atEntry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
/-- Input window 7's current staging buffer holds its block at every point — at a point that does not fetch it the
    block index has not moved since the fetch —, for any proof data over the entry contents whose body leaves the
    block in place. -/
theorem staged7_of {c : Dev nD} (dat : Dat τ (Elt F) Unit ℕ (UR sig nD τ) ℕ cfg0 c) (hA : dat.A 7 = atEntry m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)

/-! ## From the library's run to the frame claim -/

/-- In any final state satisfying the library's post, for any proof data over the entry contents, every argument array
    is as launched: the two staged inputs by the library's reading of an input array, the nine others because no
    window stages them and no host operation writes them. -/
theorem args_kept (dats : (p : Fin 1) → (c : Dev nD) → Dat τ (Elt F) Unit ℕ (UR sig nD τ) ℕ (cfgs p) c)
    (hA : ∀ c w, (dats 0 c).A w = atEntry m c (Pipeline.arrRef spec0 w))
    (r : PUnit × MemSt nD τ sig (Elt F)) (h : Pipeline.FramePost cfgs dats 0 (atEntry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).1 0).trans (((dats 0 c).arrAt_in 0 rfl _).trans ((hA c 0).trans (atEntry_arg0 m c))),
      ((h c).1 1).trans (((dats 0 c).arrAt_in 1 rfl _).trans ((hA c 1).trans (atEntry_arg1 m c))),
      ((h c).2 main_arg2 (Pipeline.mem_restRefs_of main_arg2 (by decide) (by decide))).trans (atEntry_arg2 m c),
      ((h c).2 main_arg3 (Pipeline.mem_restRefs_of main_arg3 (by decide) (by decide))).trans (atEntry_arg3 m c),
      ((h c).2 main_arg4 (Pipeline.mem_restRefs_of main_arg4 (by decide) (by decide))).trans (atEntry_arg4 m c),
      ((h c).2 main_arg5 (Pipeline.mem_restRefs_of main_arg5 (by decide) (by decide))).trans (atEntry_arg5 m c),
      ((h c).2 main_arg6 (Pipeline.mem_restRefs_of main_arg6 (by decide) (by decide))).trans (atEntry_arg6 m c),
      ((h c).2 main_arg7 (Pipeline.mem_restRefs_of main_arg7 (by decide) (by decide))).trans (atEntry_arg7 m c),
      ((h c).2 main_arg8 (Pipeline.mem_restRefs_of main_arg8 (by decide) (by decide))).trans (atEntry_arg8 m c),
      ((h c).2 main_arg9 (Pipeline.mem_restRefs_of main_arg9 (by decide) (by decide))).trans (atEntry_arg9 m c),
      ((h c).2 main_arg10 (Pipeline.mem_restRefs_of main_arg10 (by decide) (by decide))).trans (atEntry_arg10 m c)⟩

/-- So a run of @main to the library's post is a run to the frame claim's post. -/
theorem frame_of_run (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => args_kept m dats hA r h c) h

/-! ## What the body computes -/

/-- The whole-buffer rectangles the body loads and stores through. -/
abbrev rRows : Rect S2048x256 := Rect.unit (s := S2048x256) ![0, 0] S2048x256.size Gen.inb_S2048x256_S2048x256_0_0
abbrev rW : Rect S256x768 := Rect.unit (s := S256x768) ![0, 0] S256x768.size Gen.inb_S256x768_S256x768_0_0
abbrev rU : Rect S256x512 := Rect.unit (s := S256x512) ![0, 0] S256x512.size Gen.inb_S256x512_S256x512_0_0
abbrev rUh : Rect S256x256 := Rect.unit (s := S256x256) ![0, 0] S256x256.size Gen.inb_S256x256_S256x256_0_0
abbrev rBias : Rect S1x256 := Rect.unit (s := S1x256) ![0, 0] S1x256.size Gen.inb_S1x256_S1x256_0_0

/-- The output buffer after the body, as one function of the eight input blocks: the candidate state plus the update
    gate times (previous state minus candidate), stored once over the whole buffer. -/
def cellBlock (x0 : Vec F S2048x256 .f32) (x1 : Vec F S2048x256 .f32) (x2 : Vec F S256x768 .bf16) (x3 : Vec F S256x512 .bf16) (x4 : Vec F S256x256 .bf16) (x5 : Vec F S1x256 .f32) (x6 : Vec F S1x256 .f32) (x7 : Vec F S1x256 .f32) : Vec F S2048x256 .f32 :=
  View.canon [⟨rRows, k0_pay1 (k0_pay4 (View.ld x0 rRows) (View.ld x1 rRows) (View.ld x2 rW) (View.ld x3 rU) (View.ld x5 rBias) (View.ld x4 rUh) (View.ld x7 rBias)) (k0_pay5 (View.ld x0 rRows) (View.ld x1 rRows) (View.ld x2 rW) (View.ld x3 rU) (View.ld x5 rBias) (View.ld x6 rBias) (View.ld x4 rUh) (View.ld x7 rBias))⟩]

/-- The one store covers the buffer. -/
theorem cellBlock_covers (p0 : Vec F S2048x256 .f32) (y : S2048x256.Idx) :
    ∃ pc ∈ ([⟨rRows, p0⟩] : List (View.Piece (Elt F) S2048x256 .f32)), y ∈ pc.1.set :=
  View.cover_of_tiled [⟨rRows, p0⟩] S2048x256.size (by rfl) y

/-! ## The body's triple -/

set_option maxHeartbeats 1000000 in
/-- On whole staging buffers, the eight inputs' at known contents and the output's at anything, the body runs to
    its continuation with the inputs' buffers as they were and the output's at `cellBlock` of the inputs. -/
theorem body_triple (c : Dev nD) (E : Set ℕ) (i : grid0.Coords) (arg1 : Memref sig .tc .vmem S2048x256 .f32) (harg1 : arg1.IsWhole) (arg2 : Memref sig .tc .vmem S2048x256 .f32) (harg2 : arg2.IsWhole) (arg3 : Memref sig .tc .vmem S256x768 .bf16) (harg3 : arg3.IsWhole) (arg4 : Memref sig .tc .vmem S256x512 .bf16) (harg4 : arg4.IsWhole) (arg5 : Memref sig .tc .vmem S256x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S2048x256 .f32) (harg9 : arg9.IsWhole)
    (x0 : Vec F S2048x256 .f32) (x1 : Vec F S2048x256 .f32) (x2 : Vec F S256x768 .bf16) (x3 : Vec F S256x512 .bf16) (x4 : Vec F S256x256 .bf16) (x5 : Vec F S1x256 .f32) (x6 : Vec F S1x256 .f32) (x7 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (cellBlock x0 x1 x2 x3 x4 x5 x6 x7)) -∗ K ⟨⟩))
      ⊢ wp frame (wpE (defs₀ (F := F)) Variants.none c none) E (cc0__lambda_ i arg1 harg1 arg2 harg2 arg3 harg3 arg4 harg4 arg5 harg5 arg6 harg6 arg7 harg7 arg8 harg8 arg9 harg9) K := by
  simp only [cc0__lambda__eq_skeleton]; unfold cc0__lambda__skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cellBlock_covers _)

/-! ## The pipeline's proof data -/

/-- On core `c`: the arrays are the entry contents; after the body at point `t` every input buffer holds its block and
    the output buffer `cellBlock` of the eight blocks; the body uses nothing else, owes nothing, holds full shares. -/
def proofData (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => cellBlock (blockAt m c 0 t) (blockAt m c 1 t) (blockAt m c 2 t) (blockAt m c 3 t) (blockAt m c 4 t) (blockAt m c 5 t) (blockAt m c 6 t) (blockAt m c 7 t)
  Φ _ := Pipeline.ΦA spec0 c
  q _ := fullShare
  owed _ := 0

theorem proofData_A (c : Dev nD) (w : Fin cfg0.W) : (proofData m 0 c).A w = atEntry m c (Pipeline.arrRef spec0 w) := by
  dsimp only [proofData]

theorem after0 (c : Dev nD) (t : Fin cfg0.N) : (proofData m 0 c).after 0 t = blockAt m c 0 t := by dsimp only [proofData]
theorem after1 (c : Dev nD) (t : Fin cfg0.N) : (proofData m 0 c).after 1 t = blockAt m c 1 t := by dsimp only [proofData]
theorem after2 (c : Dev nD) (t : Fin cfg0.N) : (proofData m 0 c).after 2 t = blockAt m c 2 t := by dsimp only [proofData]
theorem after3 (c : Dev nD) (t : Fin cfg0.N) : (proofData m 0 c).after 3 t = blockAt m c 3 t := by dsimp only [proofData]
theorem after4 (c : Dev nD) (t : Fin cfg0.N) : (proofData m 0 c).after 4 t = blockAt m c 4 t := by dsimp only [proofData]
theorem after5 (c : Dev nD) (t : Fin cfg0.N) : (proofData m 0 c).after 5 t = blockAt m c 5 t := by dsimp only [proofData]
theorem after6 (c : Dev nD) (t : Fin cfg0.N) : (proofData m 0 c).after 6 t = blockAt m c 6 t := by dsimp only [proofData]
theorem after7 (c : Dev nD) (t : Fin cfg0.N) : (proofData m 0 c).after 7 t = blockAt m c 7 t := by dsimp only [proofData]
theorem after8 (c : Dev nD) (t : Fin cfg0.N) : (proofData m 0 c).after 8 t = cellBlock (blockAt m c 0 t) (blockAt m c 1 t) (blockAt m c 2 t) (blockAt m c 3 t) (blockAt m c 4 t) (blockAt m c 5 t) (blockAt m c 6 t) (blockAt m c 7 t) := by dsimp only [proofData]

theorem staged0 (c : Dev nD) (t : Fin cfg0.N) (d) : (proofData m 0 c).before 0 t d = blockAt m c 0 t :=
  staged0_of m (proofData m 0 c) (proofData_A m c 0) (after0 m c) t d
theorem staged1 (c : Dev nD) (t : Fin cfg0.N) (d) : (proofData m 0 c).before 1 t d = blockAt m c 1 t :=
  staged1_of m (proofData m 0 c) (proofData_A m c 1) (after1 m c) t d
theorem staged2 (c : Dev nD) (t : Fin cfg0.N) (d) : (proofData m 0 c).before 2 t d = blockAt m c 2 t :=
  staged2_of m (proofData m 0 c) (proofData_A m c 2) (after2 m c) t d
theorem staged3 (c : Dev nD) (t : Fin cfg0.N) (d) : (proofData m 0 c).before 3 t d = blockAt m c 3 t :=
  staged3_of m (proofData m 0 c) (proofData_A m c 3) (after3 m c) t d
theorem staged4 (c : Dev nD) (t : Fin cfg0.N) (d) : (proofData m 0 c).before 4 t d = blockAt m c 4 t :=
  staged4_of m (proofData m 0 c) (proofData_A m c 4) (after4 m c) t d
theorem staged5 (c : Dev nD) (t : Fin cfg0.N) (d) : (proofData m 0 c).before 5 t d = blockAt m c 5 t :=
  staged5_of m (proofData m 0 c) (proofData_A m c 5) (after5 m c) t d
theorem staged6 (c : Dev nD) (t : Fin cfg0.N) (d) : (proofData m 0 c).before 6 t d = blockAt m c 6 t :=
  staged6_of m (proofData m 0 c) (proofData_A m c 6) (after6 m c) t d
theorem staged7 (c : Dev nD) (t : Fin cfg0.N) (d) : (proofData m 0 c).before 7 t d = blockAt m c 7 t :=
  staged7_of m (proofData m 0 c) (proofData_A m c 7) (after7 m c) t d

/-! ## The body obligation -/

/-- What the body is called with at point `t`, -/
def bodyPre (c : Dev nD) (t : Fin cfg0.N) : sProp 𝕄 :=
  iprop((proofData m 0 c).Φ t.castSucc ∗ (proofData m 0 c).owesAt () t.castSucc
    ∗ (∃ d, owns (c : Thread nD τ) (st0_0 t) fullShare ((proofData m 0 c).before 0 t d))
    ∗ (∃ d, owns (c : Thread nD τ) (st0_1 t) fullShare ((proofData m 0 c).before 1 t d))
    ∗ (∃ d, owns (c : Thread nD τ) (st0_2 t) fullShare ((proofData m 0 c).before 2 t d))
    ∗ (∃ d, owns (c : Thread nD τ) (st0_3 t) fullShare ((proofData m 0 c).before 3 t d))
    ∗ (∃ d, owns (c : Thread nD τ) (st0_4 t) fullShare ((proofData m 0 c).before 4 t d))
    ∗ (∃ d, owns (c : Thread nD τ) (st0_5 t) fullShare ((proofData m 0 c).before 5 t d))
    ∗ (∃ d, owns (c : Thread nD τ) (st0_6 t) fullShare ((proofData m 0 c).before 6 t d))
    ∗ (∃ d, owns (c : Thread nD τ) (st0_7 t) fullShare ((proofData m 0 c).before 7 t d))
    ∗ (∃ d, owns (c : Thread nD τ) (st0_8 t) fullShare ((proofData m 0 c).before 8 t d)))

/-- and what it returns. -/
def bodyPost (c : Dev nD) (t : Fin cfg0.N) : sProp 𝕄 :=
  iprop((proofData m 0 c).Φ t.succ ∗ (proofData m 0 c).owesAt () t.succ
    ∗ owns (c : Thread nD τ) (st0_0 t) fullShare ((proofData m 0 c).after 0 t)
    ∗ owns (c : Thread nD τ) (st0_1 t) fullShare ((proofData m 0 c).after 1 t)
    ∗ owns (c : Thread nD τ) (st0_2 t) fullShare ((proofData m 0 c).after 2 t)
    ∗ owns (c : Thread nD τ) (st0_3 t) fullShare ((proofData m 0 c).after 3 t)
    ∗ owns (c : Thread nD τ) (st0_4 t) fullShare ((proofData m 0 c).after 4 t)
    ∗ owns (c : Thread nD τ) (st0_5 t) fullShare ((proofData m 0 c).after 5 t)
    ∗ owns (c : Thread nD τ) (st0_6 t) fullShare ((proofData m 0 c).after 6 t)
    ∗ owns (c : Thread nD τ) (st0_7 t) fullShare ((proofData m 0 c).after 7 t)
    ∗ owns (c : Thread nD τ) (st0_8 t) fullShare ((proofData m 0 c).after 8 t))

/-- The body at any point: the inputs' buffers hold their blocks, so the triple applies; the rest passes through. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [staged0, staged1, staged2, staged3, staged4, staged5, staged6, staged7]
  rw [show (proofData m 0 c).Φ t.succ = (proofData m 0 c).Φ t.castSucc from rfl,
    show (proofData m 0 c).owesAt () t.succ = (proofData m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_triple c Set.univ (grid0.coords t) _ _ _ _ _ _ _ _ _ _ _ _ _ _ _ _ _ _ (blockAt m c 0 t) (blockAt m c 1 t) (blockAt m c 2 t) (blockAt m c 3 t) (blockAt m c 4 t) (blockAt m c 5 t) (blockAt m c 6 t) (blockAt m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (proofData (F := F) m 0 c) (defs₀ (F := F)) Variants.none () Set.univ := fun t => by
  rw [bigSep_W0, bigSep_W0]
  exact body_at m c t

/-! ## The run -/

set_option backward.isDefEq.respectTransparency.types false in
/-- Every weakly fair execution of @main terminates without a fault; at the end every array a window stages holds what
    the library assembles from the proof data, and every other unscoped buffer what the call found. -/
theorem run_main : θ_run defs (onTc (τ := τ) (main (F := F))) (s₀ m ρ) (Pipeline.FramePost cfgs (proofData m) 0 (atEntry m)) :=
  Pipeline.θ_run_frame cfgs (proofData m) (0 : Fin 1) launch0 defs₀ Variants.none m ρ main
    (hbody := fun c => (body_obligation m c).loose) (hshare := fun c => (proofData m 0 c).share_full fun _ => rfl)
    (howed := fun _ _ => rfl) (V := atEntry m) (hmain := main_upto_call m Variants.none) (hA := proofData_A m) (hΦ := fun _ _ => rfl)

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of_run m ρ (proofData m) (proofData_A m) (run_main m ρ)

end Cert.Kernel.Gru

end
-- ==== Proof.FrameIdeal.lean ====
/-
  The frame of the GRU-cell program: @main is eight host operations (two concatenations of weight matrices, three
  changes of float format, three reshapes of a bias vector to a row), then ONE pallas_call over 32 grid points. At
  point t the call stages rows [2048·t, 2048·t + 2048) of the two [65536, 256] inputs, the five whole weight and bias
  arrays (fetched once, at the first point), runs the body, and writes the [2048, 256] result block back to rows
  [2048·t, 2048·t + 2048) of the result array.
  The body only loads whole staging buffers, computes, and stores the whole output buffer once; so after the body the
  output buffer holds one pure function of the eight input blocks (`cellBlock`), every input buffer still holds its
  block, and nothing else is touched. This module states that as the pipeline's proof data, proves the body's triple,
  and obtains the run of @main: it terminates without a fault, every argument array ends as launched, and the result
  array is what the library assembles from the blocks written back. Everything here holds at any float instance.
-/
import proofs.«180699_j75531294867991_2_alg».proof.Proof.Gen.KernelIdeal.Launch
import proofs.«180699_j75531294867991_2_alg».proof.Proof.Gen.KernelIdeal.Skeleton
import proofs.«180699_j75531294867991_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the pallas_call -/

/-- What core `c`'s buffers hold when the pallas_call is entered: the launch contents after the eight host operations. -/
abbrev atEntry (c : Dev nD) (b : Ref sig .tc) : Buf (Elt F) ((c : Thread nD τ).loc b) :=
  StableHlo.after (List.flatten [hostOps0]) (fun b => m (c, b)) b

/-- The host operations allocate nothing. -/
theorem hostOps0_fresh : (hostOps0 : List (HloOp τ sig (Elt F))).Forall fun op => op.fresh = ∅ := by
  simp only [List.Forall]; repeat' constructor

/-- @main is the host operations followed by the pallas_call, so the call is entered at `atEntry`. -/
theorem main_upto_call (𝒱₀ : Variants) :
    Pipeline.HMain (Ix := Unit) (Name := ℕ) (U := UR sig nD τ) (Lvl := ℕ) cfgs 0 defs₀ 𝒱₀ m (main (F := F)) (atEntry m) :=
  Pipeline.hmain_prefixes cfgs 0 defs₀ 𝒱₀ m main [hostOps0] (by simp only [List.Forall]; exact hostOps0_sub)
    (by simp only [List.Forall]; exact hostOps0_fresh) main_chain

/-- Each host operation writes only its own result buffer, so argument 0 is found as launched. -/
theorem atEntry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result buffer, so argument 1 is found as launched. -/
theorem atEntry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result buffer, so argument 2 is found as launched. -/
theorem atEntry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result buffer, so argument 3 is found as launched. -/
theorem atEntry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result buffer, so argument 4 is found as launched. -/
theorem atEntry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result buffer, so argument 5 is found as launched. -/
theorem atEntry_arg5 (c : Dev nD) : atEntry m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result buffer, so argument 6 is found as launched. -/
theorem atEntry_arg6 (c : Dev nD) : atEntry m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result buffer, so argument 7 is found as launched. -/
theorem atEntry_arg7 (c : Dev nD) : atEntry m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result buffer, so argument 8 is found as launched. -/
theorem atEntry_arg8 (c : Dev nD) : atEntry m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result buffer, so argument 9 is found as launched. -/
theorem atEntry_arg9 (c : Dev nD) : atEntry m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result buffer, so argument 10 is found as launched. -/
theorem atEntry_arg10 (c : Dev nD) : atEntry m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))

/-! ## The blocks -/

/-- Window `w`'s block at grid point `t`, read off its array as the call finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- Input window 0's current staging buffer holds its block at every point — at a point that does not fetch it the
    block index has not moved since the fetch —, for any proof data over the entry contents whose body leaves the
    block in place. -/
theorem staged0_of {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's current staging buffer holds its block at every point — at a point that does not fetch it the
    block index has not moved since the fetch —, for any proof data over the entry contents whose body leaves the
    block in place. -/
theorem staged1_of {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's current staging buffer holds its block at every point — at a point that does not fetch it the
    block index has not moved since the fetch —, for any proof data over the entry contents whose body leaves the
    block in place. -/
theorem staged2_of {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's current staging buffer holds its block at every point — at a point that does not fetch it the
    block index has not moved since the fetch —, for any proof data over the entry contents whose body leaves the
    block in place. -/
theorem staged3_of {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's current staging buffer holds its block at every point — at a point that does not fetch it the
    block index has not moved since the fetch —, for any proof data over the entry contents whose body leaves the
    block in place. -/
theorem staged4_of {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input window 5's current staging buffer holds its block at every point — at a point that does not fetch it the
    block index has not moved since the fetch —, for any proof data over the entry contents whose body leaves the
    block in place. -/
theorem staged5_of {c : Dev nD} (dat : Dat τ (Elt F) Unit ℕ (UR sig nD τ) ℕ cfg0 c) (hA : dat.A 5 = atEntry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
/-- Input window 6's current staging buffer holds its block at every point — at a point that does not fetch it the
    block index has not moved since the fetch —, for any proof data over the entry contents whose body leaves the
    block in place. -/
theorem staged6_of {c : Dev nD} (dat : Dat τ (Elt F) Unit ℕ (UR sig nD τ) ℕ cfg0 c) (hA : dat.A 6 = atEntry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
/-- Input window 7's current staging buffer holds its block at every point — at a point that does not fetch it the
    block index has not moved since the fetch —, for any proof data over the entry contents whose body leaves the
    block in place. -/
theorem staged7_of {c : Dev nD} (dat : Dat τ (Elt F) Unit ℕ (UR sig nD τ) ℕ cfg0 c) (hA : dat.A 7 = atEntry m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)

/-! ## From the library's run to the frame claim -/

/-- In any final state satisfying the library's post, for any proof data over the entry contents, every argument array
    is as launched: the two staged inputs by the library's reading of an input array, the nine others because no
    window stages them and no host operation writes them. -/
theorem args_kept (dats : (p : Fin 1) → (c : Dev nD) → Dat τ (Elt F) Unit ℕ (UR sig nD τ) ℕ (cfgs p) c)
    (hA : ∀ c w, (dats 0 c).A w = atEntry m c (Pipeline.arrRef spec0 w))
    (r : PUnit × MemSt nD τ sig (Elt F)) (h : Pipeline.FramePost cfgs dats 0 (atEntry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).1 0).trans (((dats 0 c).arrAt_in 0 rfl _).trans ((hA c 0).trans (atEntry_arg0 m c))),
      ((h c).1 1).trans (((dats 0 c).arrAt_in 1 rfl _).trans ((hA c 1).trans (atEntry_arg1 m c))),
      ((h c).2 main_arg2 (Pipeline.mem_restRefs_of main_arg2 (by decide) (by decide))).trans (atEntry_arg2 m c),
      ((h c).2 main_arg3 (Pipeline.mem_restRefs_of main_arg3 (by decide) (by decide))).trans (atEntry_arg3 m c),
      ((h c).2 main_arg4 (Pipeline.mem_restRefs_of main_arg4 (by decide) (by decide))).trans (atEntry_arg4 m c),
      ((h c).2 main_arg5 (Pipeline.mem_restRefs_of main_arg5 (by decide) (by decide))).trans (atEntry_arg5 m c),
      ((h c).2 main_arg6 (Pipeline.mem_restRefs_of main_arg6 (by decide) (by decide))).trans (atEntry_arg6 m c),
      ((h c).2 main_arg7 (Pipeline.mem_restRefs_of main_arg7 (by decide) (by decide))).trans (atEntry_arg7 m c),
      ((h c).2 main_arg8 (Pipeline.mem_restRefs_of main_arg8 (by decide) (by decide))).trans (atEntry_arg8 m c),
      ((h c).2 main_arg9 (Pipeline.mem_restRefs_of main_arg9 (by decide) (by decide))).trans (atEntry_arg9 m c),
      ((h c).2 main_arg10 (Pipeline.mem_restRefs_of main_arg10 (by decide) (by decide))).trans (atEntry_arg10 m c)⟩

/-- So a run of @main to the library's post is a run to the frame claim's post. -/
theorem frame_of_run (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => args_kept m dats hA r h c) h

/-! ## What the body computes -/

/-- The whole-buffer rectangles the body loads and stores through. -/
abbrev rRows : Rect S2048x256 := Rect.unit (s := S2048x256) ![0, 0] S2048x256.size Gen.inb_S2048x256_S2048x256_0_0
abbrev rW : Rect S256x768 := Rect.unit (s := S256x768) ![0, 0] S256x768.size Gen.inb_S256x768_S256x768_0_0
abbrev rU : Rect S256x512 := Rect.unit (s := S256x512) ![0, 0] S256x512.size Gen.inb_S256x512_S256x512_0_0
abbrev rUh : Rect S256x256 := Rect.unit (s := S256x256) ![0, 0] S256x256.size Gen.inb_S256x256_S256x256_0_0
abbrev rBias : Rect S1x256 := Rect.unit (s := S1x256) ![0, 0] S1x256.size Gen.inb_S1x256_S1x256_0_0

/-- The output buffer after the body, as one function of the eight input blocks: the candidate state plus the update
    gate times (previous state minus candidate), stored once over the whole buffer. -/
def cellBlock (x0 : Vec F S2048x256 .f32) (x1 : Vec F S2048x256 .f32) (x2 : Vec F S256x768 .bf16) (x3 : Vec F S256x512 .bf16) (x4 : Vec F S256x256 .bf16) (x5 : Vec F S1x256 .f32) (x6 : Vec F S1x256 .f32) (x7 : Vec F S1x256 .f32) : Vec F S2048x256 .f32 :=
  View.canon [⟨rRows, k0_pay1 (k0_pay4 (View.ld x0 rRows) (View.ld x1 rRows) (View.ld x2 rW) (View.ld x3 rU) (View.ld x5 rBias) (View.ld x4 rUh) (View.ld x7 rBias)) (k0_pay5 (View.ld x0 rRows) (View.ld x1 rRows) (View.ld x2 rW) (View.ld x3 rU) (View.ld x5 rBias) (View.ld x6 rBias) (View.ld x4 rUh) (View.ld x7 rBias))⟩]

/-- The one store covers the buffer. -/
theorem cellBlock_covers (p0 : Vec F S2048x256 .f32) (y : S2048x256.Idx) :
    ∃ pc ∈ ([⟨rRows, p0⟩] : List (View.Piece (Elt F) S2048x256 .f32)), y ∈ pc.1.set :=
  View.cover_of_tiled [⟨rRows, p0⟩] S2048x256.size (by rfl) y

/-! ## The body's triple -/

set_option maxHeartbeats 1000000 in
/-- On whole staging buffers, the eight inputs' at known contents and the output's at anything, the body runs to
    its continuation with the inputs' buffers as they were and the output's at `cellBlock` of the inputs. -/
theorem body_triple (c : Dev nD) (E : Set ℕ) (i : grid0.Coords) (arg1 : Memref sig .tc .vmem S2048x256 .f32) (harg1 : arg1.IsWhole) (arg2 : Memref sig .tc .vmem S2048x256 .f32) (harg2 : arg2.IsWhole) (arg3 : Memref sig .tc .vmem S256x768 .bf16) (harg3 : arg3.IsWhole) (arg4 : Memref sig .tc .vmem S256x512 .bf16) (harg4 : arg4.IsWhole) (arg5 : Memref sig .tc .vmem S256x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S2048x256 .f32) (harg9 : arg9.IsWhole)
    (x0 : Vec F S2048x256 .f32) (x1 : Vec F S2048x256 .f32) (x2 : Vec F S256x768 .bf16) (x3 : Vec F S256x512 .bf16) (x4 : Vec F S256x256 .bf16) (x5 : Vec F S1x256 .f32) (x6 : Vec F S1x256 .f32) (x7 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (cellBlock x0 x1 x2 x3 x4 x5 x6 x7)) -∗ K ⟨⟩))
      ⊢ wp frame (wpE (defs₀ (F := F)) Variants.none c none) E (cc0__lambda_ i arg1 harg1 arg2 harg2 arg3 harg3 arg4 harg4 arg5 harg5 arg6 harg6 arg7 harg7 arg8 harg8 arg9 harg9) K := by
  simp only [cc0__lambda__eq_skeleton]; unfold cc0__lambda__skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cellBlock_covers _)

/-! ## The pipeline's proof data -/

/-- On core `c`: the arrays are the entry contents; after the body at point `t` every input buffer holds its block and
    the output buffer `cellBlock` of the eight blocks; the body uses nothing else, owes nothing, holds full shares. -/
def proofData (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => cellBlock (blockAt m c 0 t) (blockAt m c 1 t) (blockAt m c 2 t) (blockAt m c 3 t) (blockAt m c 4 t) (blockAt m c 5 t) (blockAt m c 6 t) (blockAt m c 7 t)
  Φ _ := Pipeline.ΦA spec0 c
  q _ := fullShare
  owed _ := 0

theorem proofData_A (c : Dev nD) (w : Fin cfg0.W) : (proofData m 0 c).A w = atEntry m c (Pipeline.arrRef spec0 w) := by
  dsimp only [proofData]

theorem after0 (c : Dev nD) (t : Fin cfg0.N) : (proofData m 0 c).after 0 t = blockAt m c 0 t := by dsimp only [proofData]
theorem after1 (c : Dev nD) (t : Fin cfg0.N) : (proofData m 0 c).after 1 t = blockAt m c 1 t := by dsimp only [proofData]
theorem after2 (c : Dev nD) (t : Fin cfg0.N) : (proofData m 0 c).after 2 t = blockAt m c 2 t := by dsimp only [proofData]
theorem after3 (c : Dev nD) (t : Fin cfg0.N) : (proofData m 0 c).after 3 t = blockAt m c 3 t := by dsimp only [proofData]
theorem after4 (c : Dev nD) (t : Fin cfg0.N) : (proofData m 0 c).after 4 t = blockAt m c 4 t := by dsimp only [proofData]
theorem after5 (c : Dev nD) (t : Fin cfg0.N) : (proofData m 0 c).after 5 t = blockAt m c 5 t := by dsimp only [proofData]
theorem after6 (c : Dev nD) (t : Fin cfg0.N) : (proofData m 0 c).after 6 t = blockAt m c 6 t := by dsimp only [proofData]
theorem after7 (c : Dev nD) (t : Fin cfg0.N) : (proofData m 0 c).after 7 t = blockAt m c 7 t := by dsimp only [proofData]
theorem after8 (c : Dev nD) (t : Fin cfg0.N) : (proofData m 0 c).after 8 t = cellBlock (blockAt m c 0 t) (blockAt m c 1 t) (blockAt m c 2 t) (blockAt m c 3 t) (blockAt m c 4 t) (blockAt m c 5 t) (blockAt m c 6 t) (blockAt m c 7 t) := by dsimp only [proofData]

theorem staged0 (c : Dev nD) (t : Fin cfg0.N) (d) : (proofData m 0 c).before 0 t d = blockAt m c 0 t :=
  staged0_of m (proofData m 0 c) (proofData_A m c 0) (after0 m c) t d
theorem staged1 (c : Dev nD) (t : Fin cfg0.N) (d) : (proofData m 0 c).before 1 t d = blockAt m c 1 t :=
  staged1_of m (proofData m 0 c) (proofData_A m c 1) (after1 m c) t d
theorem staged2 (c : Dev nD) (t : Fin cfg0.N) (d) : (proofData m 0 c).before 2 t d = blockAt m c 2 t :=
  staged2_of m (proofData m 0 c) (proofData_A m c 2) (after2 m c) t d
theorem staged3 (c : Dev nD) (t : Fin cfg0.N) (d) : (proofData m 0 c).before 3 t d = blockAt m c 3 t :=
  staged3_of m (proofData m 0 c) (proofData_A m c 3) (after3 m c) t d
theorem staged4 (c : Dev nD) (t : Fin cfg0.N) (d) : (proofData m 0 c).before 4 t d = blockAt m c 4 t :=
  staged4_of m (proofData m 0 c) (proofData_A m c 4) (after4 m c) t d
theorem staged5 (c : Dev nD) (t : Fin cfg0.N) (d) : (proofData m 0 c).before 5 t d = blockAt m c 5 t :=
  staged5_of m (proofData m 0 c) (proofData_A m c 5) (after5 m c) t d
theorem staged6 (c : Dev nD) (t : Fin cfg0.N) (d) : (proofData m 0 c).before 6 t d = blockAt m c 6 t :=
  staged6_of m (proofData m 0 c) (proofData_A m c 6) (after6 m c) t d
theorem staged7 (c : Dev nD) (t : Fin cfg0.N) (d) : (proofData m 0 c).before 7 t d = blockAt m c 7 t :=
  staged7_of m (proofData m 0 c) (proofData_A m c 7) (after7 m c) t d

/-! ## The body obligation -/

/-- What the body is called with at point `t`, -/
def bodyPre (c : Dev nD) (t : Fin cfg0.N) : sProp 𝕄 :=
  iprop((proofData m 0 c).Φ t.castSucc ∗ (proofData m 0 c).owesAt () t.castSucc
    ∗ (∃ d, owns (c : Thread nD τ) (st0_0 t) fullShare ((proofData m 0 c).before 0 t d))
    ∗ (∃ d, owns (c : Thread nD τ) (st0_1 t) fullShare ((proofData m 0 c).before 1 t d))
    ∗ (∃ d, owns (c : Thread nD τ) (st0_2 t) fullShare ((proofData m 0 c).before 2 t d))
    ∗ (∃ d, owns (c : Thread nD τ) (st0_3 t) fullShare ((proofData m 0 c).before 3 t d))
    ∗ (∃ d, owns (c : Thread nD τ) (st0_4 t) fullShare ((proofData m 0 c).before 4 t d))
    ∗ (∃ d, owns (c : Thread nD τ) (st0_5 t) fullShare ((proofData m 0 c).before 5 t d))
    ∗ (∃ d, owns (c : Thread nD τ) (st0_6 t) fullShare ((proofData m 0 c).before 6 t d))
    ∗ (∃ d, owns (c : Thread nD τ) (st0_7 t) fullShare ((proofData m 0 c).before 7 t d))
    ∗ (∃ d, owns (c : Thread nD τ) (st0_8 t) fullShare ((proofData m 0 c).before 8 t d)))

/-- and what it returns. -/
def bodyPost (c : Dev nD) (t : Fin cfg0.N) : sProp 𝕄 :=
  iprop((proofData m 0 c).Φ t.succ ∗ (proofData m 0 c).owesAt () t.succ
    ∗ owns (c : Thread nD τ) (st0_0 t) fullShare ((proofData m 0 c).after 0 t)
    ∗ owns (c : Thread nD τ) (st0_1 t) fullShare ((proofData m 0 c).after 1 t)
    ∗ owns (c : Thread nD τ) (st0_2 t) fullShare ((proofData m 0 c).after 2 t)
    ∗ owns (c : Thread nD τ) (st0_3 t) fullShare ((proofData m 0 c).after 3 t)
    ∗ owns (c : Thread nD τ) (st0_4 t) fullShare ((proofData m 0 c).after 4 t)
    ∗ owns (c : Thread nD τ) (st0_5 t) fullShare ((proofData m 0 c).after 5 t)
    ∗ owns (c : Thread nD τ) (st0_6 t) fullShare ((proofData m 0 c).after 6 t)
    ∗ owns (c : Thread nD τ) (st0_7 t) fullShare ((proofData m 0 c).after 7 t)
    ∗ owns (c : Thread nD τ) (st0_8 t) fullShare ((proofData m 0 c).after 8 t))

/-- The body at any point: the inputs' buffers hold their blocks, so the triple applies; the rest passes through. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [staged0, staged1, staged2, staged3, staged4, staged5, staged6, staged7]
  rw [show (proofData m 0 c).Φ t.succ = (proofData m 0 c).Φ t.castSucc from rfl,
    show (proofData m 0 c).owesAt () t.succ = (proofData m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_triple c Set.univ (grid0.coords t) _ _ _ _ _ _ _ _ _ _ _ _ _ _ _ _ _ _ (blockAt m c 0 t) (blockAt m c 1 t) (blockAt m c 2 t) (blockAt m c 3 t) (blockAt m c 4 t) (blockAt m c 5 t) (blockAt m c 6 t) (blockAt m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (proofData (F := F) m 0 c) (defs₀ (F := F)) Variants.none () Set.univ := fun t => by
  rw [bigSep_W0, bigSep_W0]
  exact body_at m c t

/-! ## The run -/

set_option backward.isDefEq.respectTransparency.types false in
/-- Every weakly fair execution of @main terminates without a fault; at the end every array a window stages holds what
    the library assembles from the proof data, and every other unscoped buffer what the call found. -/
theorem run_main : θ_run defs (onTc (τ := τ) (main (F := F))) (s₀ m ρ) (Pipeline.FramePost cfgs (proofData m) 0 (atEntry m)) :=
  Pipeline.θ_run_frame cfgs (proofData m) (0 : Fin 1) launch0 defs₀ Variants.none m ρ main
    (hbody := fun c => (body_obligation m c).loose) (hshare := fun c => (proofData m 0 c).share_full fun _ => rfl)
    (howed := fun _ _ => rfl) (V := atEntry m) (hmain := main_upto_call m Variants.none) (hA := proofData_A m) (hΦ := fun _ _ => rfl)

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of_run m ρ (proofData m) (proofData_A m) (run_main m ρ)

end Cert.KernelIdeal.Gru

end
-- ==== Proof.Cell.lean ====
/-
  The GRU cell, row by row, on the extended reals. For a state row h and an input row x (256 entries each), the
  concatenated input weights Wc = [W_r | W_z | W_h] (256 × 768), the concatenated state weights Uc = [U_r | U_z]
  (256 × 512), the candidate's state weights Uh (256 × 256) and three bias rows:
      r_l  = σ((x·Wc)_l       + (h·Uc)_l       + b_r l)          the reset gate
      z_j  = σ((x·Wc)_{256+j} + (h·Uc)_{256+j} + b_z j)          the update gate
      c_j  = tanh((x·Wc)_{512+j} + ((h ⊙ r)·Uh)_j + b_h j)       the candidate state
      out_j = c_j + z_j · (h_j − c_j)
  where σ t = 1 / (1 + e^(−t)), every product of a row with a matrix is a plain sum over the 256 shared entries, and
  nothing is rounded. Output row i of the whole computation depends on row i of the two big inputs only, so one
  function of two rows describes a block of 2048 rows and the array of 65536 rows alike.
-/
import Idealize.ShloMosaic.PureOps.Ideal
import Idealize.ShloMosaic.Lib.ValueIdx

noncomputable section

namespace Cert.GruCell

open Idealize.ShloMosaic Idealize.ShloMosaic.ValueIdx
open scoped BigOperators

/-- A row of 256 entries. -/
abbrev Row : Type := Fin 256 → EReal
abbrev MatW : Type := (⟨2, ![256, 768]⟩ : Shape).Idx → EReal
abbrev MatU : Type := (⟨2, ![256, 512]⟩ : Shape).Idx → EReal
abbrev MatH : Type := (⟨2, ![256, 256]⟩ : Shape).Idx → EReal

/-- Column j of each 256-wide piece of the 768-wide and of the 512-wide products. -/
def colR (j : Fin 256) : Fin 768 := ⟨j.val, by have := j.isLt; omega⟩
def colZ (j : Fin 256) : Fin 768 := ⟨256 + j.val, by have := j.isLt; omega⟩
def colH (j : Fin 256) : Fin 768 := ⟨512 + j.val, by have := j.isLt; omega⟩
def ucolR (j : Fin 256) : Fin 512 := ⟨j.val, by have := j.isLt; omega⟩
def ucolZ (j : Fin 256) : Fin 512 := ⟨256 + j.val, by have := j.isLt; omega⟩

/-- Entry k of a row times a matrix: the sum over the 256 shared entries. -/
def dotW (x : Row) (Wc : MatW) (k : Fin 768) : EReal := ∑ l : Fin 256, x l * Wc (ix2 l k)
def dotU (h : Row) (Uc : MatU) (k : Fin 512) : EReal := ∑ l : Fin 256, h l * Uc (ix2 l k)
def dotH (g : Row) (Uh : MatH) (k : Fin 256) : EReal := ∑ l : Fin 256, g l * Uh (ix2 l k)

def resetGate (h x : Row) (Wc : MatW) (Uc : MatU) (br : Row) (l : Fin 256) : EReal :=
  Ideal.logistic (dotW x Wc (colR l) + dotU h Uc (ucolR l) + br l)

def updateGate (h x : Row) (Wc : MatW) (Uc : MatU) (bz : Row) (j : Fin 256) : EReal :=
  Ideal.logistic (dotW x Wc (colZ j) + dotU h Uc (ucolZ j) + bz j)

def candidate (h x : Row) (Wc : MatW) (Uc : MatU) (Uh : MatH) (br bh : Row) (j : Fin 256) : EReal :=
  Ideal.tanh (dotW x Wc (colH j) + dotH (fun l => h l * resetGate h x Wc Uc br l) Uh j + bh j)

/-- Entry j of the new state row. -/
def cellRow (h x : Row) (Wc : MatW) (Uc : MatU) (Uh : MatH) (br bz bh : Row) (j : Fin 256) : EReal :=
  candidate h x Wc Uc Uh br bh j + updateGate h x Wc Uc bz j * (h j - candidate h x Wc Uc Uh br bh j)

/-- The whole result: entry (i, j) is entry j of the cell applied to rows i of the state and input arrays. -/
def cellArray (H X : (⟨2, ![65536, 256]⟩ : Shape).Idx → EReal) (Wc : MatW) (Uc : MatU) (Uh : MatH)
    (br bz bh : (⟨1, ![256]⟩ : Shape).Idx → EReal) : (⟨2, ![65536, 256]⟩ : Shape).Idx → EReal :=
  fun i => cellRow (fun l => H (ix2 (i 0) l)) (fun l => X (ix2 (i 0) l)) Wc Uc Uh
    (fun l => br (ix1 l)) (fun l => bz (ix1 l)) (fun l => bh (ix1 l)) (i 1)

end Cert.GruCell

end
-- ==== Proof.KernelCell.lean ====
/-
  The body's output block is the cell applied row by row. The body's arithmetic, as one pure term of the eight loaded
  blocks, is pointwise operations (add, multiply, subtract, σ, tanh, changes of float format) around five column
  slices, three broadcasts of a [1, 256] bias row down the 2048 rows, and three matrix products into a zero
  accumulator. Read as functions of the index, a slice is a shift of the column, a broadcast forgets the row, a change
  of format is the identity and a matrix product is the sum over the shared axis; what is left is the cell's formula.
-/
import proofs.«180699_j75531294867991_2_alg».proof.Proof.Gen.KernelIdeal.Skeleton
import proofs.«180699_j75531294867991_2_alg».proof.Proof.Cell
import Idealize.ShloMosaic.Lib.Pipeline.Value
import Idealize.ShloMosaic.Lib.ValueIdx
import Idealize.ShloMosaic.PureOps.Ideal.Laws

set_option maxRecDepth 16384

noncomputable section

namespace Cert.KernelIdeal.GruValue

open Cert.KernelIdeal Cert.KernelIdeal.Gen Cert.GruCell
open Idealize.ShloMosaic Idealize.ShloMosaic.ValueIdx
open scoped BigOperators

/-! ## Column slices of the two wide products, as functions of the index -/

theorem slice768 (off : Nat) (c : Fin 256 → Fin 768) (hc : ∀ q, (c q).val = off + q.val)
    (y : S2048x768.Idx → EReal) (h : S2048x768.Slices ![0, off] S2048x256) :
    extractStridedSlice S2048x256 ![0, off] y h = fun i => y (ix2 (i 0) (c (i 1))) :=
  funext fun i => extractStridedSlice_apply ![0, off] y h i (ix2 (i 0) (c (i 1))) (fun a => match a with
    | ⟨0, _⟩ => by show (i 0).val = 0 + (i 0).val; omega
    | ⟨1, _⟩ => by show (c (i 1)).val = off + (i 1).val; exact hc _)

theorem slice512 (off : Nat) (c : Fin 256 → Fin 512) (hc : ∀ q, (c q).val = off + q.val)
    (y : S2048x512.Idx → EReal) (h : S2048x512.Slices ![0, off] S2048x256) :
    extractStridedSlice S2048x256 ![0, off] y h = fun i => y (ix2 (i 0) (c (i 1))) :=
  funext fun i => extractStridedSlice_apply ![0, off] y h i (ix2 (i 0) (c (i 1))) (fun a => match a with
    | ⟨0, _⟩ => by show (i 0).val = 0 + (i 0).val; omega
    | ⟨1, _⟩ => by show (c (i 1)).val = off + (i 1).val; exact hc _)

/-! ## A bias row broadcast down the rows -/

theorem biasRows (v : S1x256.Idx → EReal) (hc : S1x256.ShapeCasts S1x256) (hb : S1x256.Broadcasts S2048x256) :
    broadcastTo S2048x256 (shapeCast S1x256 v hc) hb = fun i => v (ix2 (0 : Fin 1) (i 1)) := by
  rw [shapeCast_self]
  exact funext fun i => broadcastTo_apply v hb i (ix2 (0 : Fin 1) (i 1)) (fun a => match a with
    | ⟨0, _⟩ => by show (0 : Nat) = if (1 : Nat) = 1 then 0 else _; rw [if_pos rfl]
    | ⟨1, _⟩ => by show (i 1).val = if (256 : Nat) = 1 then 0 else _; rw [if_neg (by decide)]; rfl)

/-! ## The three matrix products -/

theorem prodW_l0 (i : S2048x768.Idx) (q : dot_S2048x256_S256x768_S2048x768_1_0_0_1_n_n.contr.Idx) : (dot_S2048x256_S256x768_S2048x768_1_0_0_1_n_n.lhsIdx i q 0).val = (i 0).val := by
  unfold DotDims.lhsIdx
  rw [dif_neg (show ¬(0 : Fin S2048x256.rank) ∈ dot_S2048x256_S256x768_S2048x768_1_0_0_1_n_n.lhsBatch by decide), dif_pos (show (0 : Fin S2048x256.rank) ∈ dot_S2048x256_S256x768_S2048x768_1_0_0_1_n_n.lhsNonContracting by decide)]
  rfl
theorem prodW_l1 (i : S2048x768.Idx) (q : dot_S2048x256_S256x768_S2048x768_1_0_0_1_n_n.contr.Idx) : (dot_S2048x256_S256x768_S2048x768_1_0_0_1_n_n.lhsIdx i q 1).val = (q ⟨0, by decide⟩).val :=
  dot_S2048x256_S256x768_S2048x768_1_0_0_1_n_n.lhsIdx_val_of_single rfl i q
theorem prodW_r0 (i : S2048x768.Idx) (q : dot_S2048x256_S256x768_S2048x768_1_0_0_1_n_n.contr.Idx) : (dot_S2048x256_S256x768_S2048x768_1_0_0_1_n_n.rhsIdx i q 0).val = (q ⟨0, by decide⟩).val :=
  dot_S2048x256_S256x768_S2048x768_1_0_0_1_n_n.rhsIdx_val_of_single rfl i q
theorem prodW_r1 (i : S2048x768.Idx) (q : dot_S2048x256_S256x768_S2048x768_1_0_0_1_n_n.contr.Idx) : (dot_S2048x256_S256x768_S2048x768_1_0_0_1_n_n.rhsIdx i q 1).val = (i 1).val := by
  unfold DotDims.rhsIdx
  rw [dif_neg (show ¬(1 : Fin S256x768.rank) ∈ dot_S2048x256_S256x768_S2048x768_1_0_0_1_n_n.rhsBatch by decide), dif_pos (show (1 : Fin S256x768.rank) ∈ dot_S2048x256_S256x768_S2048x768_1_0_0_1_n_n.rhsNonContracting by decide)]
  rfl

/-- The product into a zero accumulator, as a function of the index: entry (p, k) is the sum over l of A (p, l) · B (l, k). -/
theorem prodW (A : FVec Ideal S2048x256 .bf16) (B : S256x768.Idx → EReal) (hc : S256x768.ShapeCasts S256x768) :
    matmul dot_S2048x256_S256x768_S2048x768_1_0_0_1_n_n none A (shapeCast S256x768 B hc : FVec Ideal S256x768 .bf16) (constant (F := Ideal) S2048x768 .f32 0x00000000#32)
      = fun i => ∑ l : Fin 256, A (ix2 (i 0) l) * B (ix2 l (i 1)) := by
  rw [shapeCast_self]
  funext i
  simp only [matmul]
  rw [Ideal.matmul_constant_zero_apply, ← Equiv.sum_comp (contrEquiv1 dot_S2048x256_S256x768_S2048x768_1_0_0_1_n_n 256 rfl rfl).symm]
  refine Finset.sum_congr rfl fun l _ => ?_
  have hk := contrEquiv1_symm_val dot_S2048x256_S256x768_S2048x768_1_0_0_1_n_n 256 rfl rfl l
  have el : dot_S2048x256_S256x768_S2048x768_1_0_0_1_n_n.lhsIdx i ((contrEquiv1 dot_S2048x256_S256x768_S2048x768_1_0_0_1_n_n 256 rfl rfl).symm l) = ix2 (i 0) l := funext fun a => Fin.ext (by
    match a with
    | ⟨0, _⟩ => exact prodW_l0 _ _
    | ⟨1, _⟩ => exact (prodW_l1 _ _).trans hk)
  have er : dot_S2048x256_S256x768_S2048x768_1_0_0_1_n_n.rhsIdx i ((contrEquiv1 dot_S2048x256_S256x768_S2048x768_1_0_0_1_n_n 256 rfl rfl).symm l) = ix2 l (i 1) := funext fun a => Fin.ext (by
    match a with
    | ⟨0, _⟩ => exact (prodW_r0 _ _).trans hk
    | ⟨1, _⟩ => exact prodW_r1 _ _)
  rw [el, er]
  rfl

theorem prodU_l0 (i : S2048x512.Idx) (q : dot_S2048x256_S256x512_S2048x512_1_0_0_1_n_n.contr.Idx) : (dot_S2048x256_S256x512_S2048x512_1_0_0_1_n_n.lhsIdx i q 0).val = (i 0).val := by
  unfold DotDims.lhsIdx
  rw [dif_neg (show ¬(0 : Fin S2048x256.rank) ∈ dot_S2048x256_S256x512_S2048x512_1_0_0_1_n_n.lhsBatch by decide), dif_pos (show (0 : Fin S2048x256.rank) ∈ dot_S2048x256_S256x512_S2048x512_1_0_0_1_n_n.lhsNonContracting by decide)]
  rfl
theorem prodU_l1 (i : S2048x512.Idx) (q : dot_S2048x256_S256x512_S2048x512_1_0_0_1_n_n.contr.Idx) : (dot_S2048x256_S256x512_S2048x512_1_0_0_1_n_n.lhsIdx i q 1).val = (q ⟨0, by decide⟩).val :=
  dot_S2048x256_S256x512_S2048x512_1_0_0_1_n_n.lhsIdx_val_of_single rfl i q
theorem prodU_r0 (i : S2048x512.Idx) (q : dot_S2048x256_S256x512_S2048x512_1_0_0_1_n_n.contr.Idx) : (dot_S2048x256_S256x512_S2048x512_1_0_0_1_n_n.rhsIdx i q 0).val = (q ⟨0, by decide⟩).val :=
  dot_S2048x256_S256x512_S2048x512_1_0_0_1_n_n.rhsIdx_val_of_single rfl i q
theorem prodU_r1 (i : S2048x512.Idx) (q : dot_S2048x256_S256x512_S2048x512_1_0_0_1_n_n.contr.Idx) : (dot_S2048x256_S256x512_S2048x512_1_0_0_1_n_n.rhsIdx i q 1).val = (i 1).val := by
  unfold DotDims.rhsIdx
  rw [dif_neg (show ¬(1 : Fin S256x512.rank) ∈ dot_S2048x256_S256x512_S2048x512_1_0_0_1_n_n.rhsBatch by decide), dif_pos (show (1 : Fin S256x512.rank) ∈ dot_S2048x256_S256x512_S2048x512_1_0_0_1_n_n.rhsNonContracting by decide)]
  rfl

/-- The product into a zero accumulator, as a function of the index: entry (p, k) is the sum over l of A (p, l) · B (l, k). -/
theorem prodU (A : FVec Ideal S2048x256 .bf16) (B : S256x512.Idx → EReal) (hc : S256x512.ShapeCasts S256x512) :
    matmul dot_S2048x256_S256x512_S2048x512_1_0_0_1_n_n none A (shapeCast S256x512 B hc : FVec Ideal S256x512 .bf16) (constant (F := Ideal) S2048x512 .f32 0x00000000#32)
      = fun i => ∑ l : Fin 256, A (ix2 (i 0) l) * B (ix2 l (i 1)) := by
  rw [shapeCast_self]
  funext i
  simp only [matmul]
  rw [Ideal.matmul_constant_zero_apply, ← Equiv.sum_comp (contrEquiv1 dot_S2048x256_S256x512_S2048x512_1_0_0_1_n_n 256 rfl rfl).symm]
  refine Finset.sum_congr rfl fun l _ => ?_
  have hk := contrEquiv1_symm_val dot_S2048x256_S256x512_S2048x512_1_0_0_1_n_n 256 rfl rfl l
  have el : dot_S2048x256_S256x512_S2048x512_1_0_0_1_n_n.lhsIdx i ((contrEquiv1 dot_S2048x256_S256x512_S2048x512_1_0_0_1_n_n 256 rfl rfl).symm l) = ix2 (i 0) l := funext fun a => Fin.ext (by
    match a with
    | ⟨0, _⟩ => exact prodU_l0 _ _
    | ⟨1, _⟩ => exact (prodU_l1 _ _).trans hk)
  have er : dot_S2048x256_S256x512_S2048x512_1_0_0_1_n_n.rhsIdx i ((contrEquiv1 dot_S2048x256_S256x512_S2048x512_1_0_0_1_n_n 256 rfl rfl).symm l) = ix2 l (i 1) := funext fun a => Fin.ext (by
    match a with
    | ⟨0, _⟩ => exact (prodU_r0 _ _).trans hk
    | ⟨1, _⟩ => exact prodU_r1 _ _)
  rw [el, er]
  rfl

theorem prodH_l0 (i : S2048x256.Idx) (q : dot_S2048x256_S256x256_S2048x256_1_0_0_1_n_n.contr.Idx) : (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem prodH_l1 (i : S2048x256.Idx) (q : dot_S2048x256_S256x256_S2048x256_1_0_0_1_n_n.contr.Idx) : (dot_S2048x256_S256x256_S2048x256_1_0_0_1_n_n.lhsIdx i q 1).val = (q ⟨0, by decide⟩).val :=
  dot_S2048x256_S256x256_S2048x256_1_0_0_1_n_n.lhsIdx_val_of_single rfl i q
theorem prodH_r0 (i : S2048x256.Idx) (q : dot_S2048x256_S256x256_S2048x256_1_0_0_1_n_n.contr.Idx) : (dot_S2048x256_S256x256_S2048x256_1_0_0_1_n_n.rhsIdx i q 0).val = (q ⟨0, by decide⟩).val :=
  dot_S2048x256_S256x256_S2048x256_1_0_0_1_n_n.rhsIdx_val_of_single rfl i q
theorem prodH_r1 (i : S2048x256.Idx) (q : dot_S2048x256_S256x256_S2048x256_1_0_0_1_n_n.contr.Idx) : (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The product into a zero accumulator, as a function of the index: entry (p, k) is the sum over l of A (p, l) · B (l, k). -/
theorem prodH (A : FVec Ideal S2048x256 .bf16) (B : S256x256.Idx → EReal) (hc : S256x256.ShapeCasts S256x256) :
    matmul dot_S2048x256_S256x256_S2048x256_1_0_0_1_n_n none A (shapeCast S256x256 B hc : FVec Ideal S256x256 .bf16) (constant (F := Ideal) S2048x256 .f32 0x00000000#32)
      = fun i => ∑ l : Fin 256, A (ix2 (i 0) l) * B (ix2 l (i 1)) := by
  rw [shapeCast_self]
  funext i
  simp only [matmul]
  rw [Ideal.matmul_constant_zero_apply, ← Equiv.sum_comp (contrEquiv1 dot_S2048x256_S256x256_S2048x256_1_0_0_1_n_n 256 rfl rfl).symm]
  refine Finset.sum_congr rfl fun l _ => ?_
  have hk := contrEquiv1_symm_val dot_S2048x256_S256x256_S2048x256_1_0_0_1_n_n 256 rfl rfl l
  have el : dot_S2048x256_S256x256_S2048x256_1_0_0_1_n_n.lhsIdx i ((contrEquiv1 dot_S2048x256_S256x256_S2048x256_1_0_0_1_n_n 256 rfl rfl).symm l) = ix2 (i 0) l := funext fun a => Fin.ext (by
    match a with
    | ⟨0, _⟩ => exact prodH_l0 _ _
    | ⟨1, _⟩ => exact (prodH_l1 _ _).trans hk)
  have er : dot_S2048x256_S256x256_S2048x256_1_0_0_1_n_n.rhsIdx i ((contrEquiv1 dot_S2048x256_S256x256_S2048x256_1_0_0_1_n_n 256 rfl rfl).symm l) = ix2 l (i 1) := funext fun a => Fin.ext (by
    match a with
    | ⟨0, _⟩ => exact (prodH_r0 _ _).trans hk
    | ⟨1, _⟩ => exact prodH_r1 _ _)
  rw [el, er]
  rfl

/-! ## The block -/

/-- What the body stores, read at row p and column q of the block, is entry q of the cell on rows p of the two big
    blocks, with the weight blocks as they are and the bias blocks read along their one row. -/
theorem block_at (x0 x1 : Vec Ideal S2048x256 .f32) (x2 : Vec Ideal S256x768 .bf16) (x3 : Vec Ideal S256x512 .bf16)
    (x4 : Vec Ideal S256x256 .bf16) (x5 x6 x7 : Vec Ideal S1x256 .f32) (p : Fin 2048) (q : Fin 256) :
    k0_pay1 (k0_pay4 x0 x1 x2 x3 x5 x4 x7) (k0_pay5 x0 x1 x2 x3 x5 x6 x4 x7) (ix2 p q)
      = cellRow (fun l => x0 (ix2 p l)) (fun l => x1 (ix2 p l)) x2 x3 x4
          (fun l => x5 (ix2 (0 : Fin 1) l)) (fun l => x6 (ix2 (0 : Fin 1) l)) (fun l => x7 (ix2 (0 : Fin 1) l)) q := by
  unfold k0_pay1 k0_pay5 k0_pay4 k0_pay2 k0_pay3
  simp only [slice768 0 colR (fun _ => (Nat.zero_add _).symm), slice768 256 colZ (fun _ => rfl), slice768 512 colH (fun _ => rfl),
    slice512 0 ucolR (fun _ => (Nat.zero_add _).symm), slice512 256 ucolZ (fun _ => rfl), biasRows, prodW, prodU, prodH]
  rfl

end Cert.KernelIdeal.GruValue

end
-- ==== Proof.KernelValue.lean ====
/-
  The result array of the pallas_call. At grid point t the call writes back `cellBlock` of the eight staged blocks;
  the two big blocks are rows [2048·t, 2048·t + 2048) of the state and input arrays, the weight and bias blocks are the
  whole arrays the host operations left (the two concatenations and the third weight matrix, the change of float format
  being the identity on the extended reals, and each bias vector reshaped to one row). So what point t writes back is
  rows [2048·t, 2048·t + 2048) of the cell applied to every row of the arguments, the 32 blocks tile the 65536 rows,
  and the result array ends holding that one function.
-/
import proofs.«180699_j75531294867991_2_alg».proof.Proof.FrameIdeal
import proofs.«180699_j75531294867991_2_alg».proof.Proof.KernelCell
import Idealize.ShloMosaic.Lib.Pipeline.Value
import Idealize.ShloMosaic.Lib.StableHlo.Run

set_option maxRecDepth 16384

noncomputable section

namespace Cert.KernelIdeal.GruValue

open Cert.KernelIdeal Cert.KernelIdeal.Gen Cert.KernelIdeal.Gru Cert.GruCell
open Idealize.ShloMosaic Idealize.ShloMosaic.TcCoe Idealize.ShloMosaic.ValueIdx Idealize.ShloMosaic.StableHlo
open Idealize.SL.Sem
open Idealize.ShloMosaic.Pipeline (Dat)

variable (m : (ℓ : Loc nD τ sig) → Buf (Elt Ideal) ℓ) (ρ : Dev nD → PrngReg)

/-! ## What the host operations leave -/

/-- The input weights side by side, and the state weights side by side. -/
def Wc (c : Dev nD) : S256x768.Idx → EReal :=
  concatenate S256x768 1 [⟨S256x256, m ((c : Thread nD τ).loc main_arg2)⟩, ⟨S256x256, m ((c : Thread nD τ).loc main_arg3)⟩, ⟨S256x256, m ((c : Thread nD τ).loc main_arg4)⟩] Gen.concatenates_S256x256_S256x256_S256x256_S256x768_d1
def Uc (c : Dev nD) : S256x512.Idx → EReal :=
  concatenate S256x512 1 [⟨S256x256, m ((c : Thread nD τ).loc main_arg5)⟩, ⟨S256x256, m ((c : Thread nD τ).loc main_arg6)⟩] Gen.concatenates_S256x256_S256x256_S256x512_d1

theorem entry_W (c : Dev nD) : (atEntry m c main_v1 : S256x768.Idx → EReal) = Wc m c := by
  dsimp only [atEntry]
  simp only [hostOps0, List.flatten_cons, List.flatten_nil, List.append_nil, List.cons_append, List.nil_append]
  after_results
  rfl

theorem entry_U (c : Dev nD) : (atEntry m c main_v3 : S256x512.Idx → EReal) = Uc m c := by
  dsimp only [atEntry]
  simp only [hostOps0, List.flatten_cons, List.flatten_nil, List.append_nil, List.cons_append, List.nil_append]
  after_results
  rfl

theorem entry_Uh (c : Dev nD) : (atEntry m c main_v4 : S256x256.Idx → EReal) = m ((c : Thread nD τ).loc main_arg7) := by
  dsimp only [atEntry]
  simp only [hostOps0, List.flatten_cons, List.flatten_nil, List.append_nil, List.cons_append, List.nil_append]
  after_results
  rfl

/-! ## The blocks against the arrays -/

/-- The printed index maps over the 32 grid points: the two big inputs and the result move down one block of rows per
    point and never along the columns; the weight and bias windows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Row p of block t is row 2048·t + p of the array. -/
def rowOf (t : Fin cfg0.N) (p : Fin 2048) : Fin 65536 :=
  ⟨t.val * 2048 + p.val, by have ht : t.val < 32 := lt_of_lt_of_eq t.isLt N_0; have := p.isLt; omega⟩

theorem rows0 (c : Dev nD) (t : Fin cfg0.N) (p : Fin 2048) (l : Fin 256) :
    (blockAt m c 0 t : S2048x256.Idx → EReal) (ix2 p l) = m ((c : Thread nD τ).loc main_arg0) (ix2 (rowOf t p) l) := by
  rw [← atEntry_arg0 m c]
  show atEntry m c main_arg0 (((cfg0.win 0).blk t).view.emb (ix2 p l)) = atEntry m c main_arg0 (ix2 (rowOf t p) l)
  refine congrArg _ (funext fun a => Fin.ext ?_)
  have e0 : win0_0.index t (0 : Fin 2) = t.val := (show _ ∧ _ from ⟨(idx_facts t).1, (idx_facts t).2.1⟩).1
  have e1 : win0_0.index t (1 : Fin 2) = 0 := (show _ ∧ _ from ⟨(idx_facts t).1, (idx_facts t).2.1⟩).2
  match a with
  | ⟨0, _⟩ => show win0_0.index t (0 : Fin 2) * 2048 + 1 * p.val = t.val * 2048 + p.val; rw [e0]; omega
  | ⟨1, _⟩ => show win0_0.index t (1 : Fin 2) * 256 + 1 * l.val = l.val; rw [e1]; omega

theorem rows1 (c : Dev nD) (t : Fin cfg0.N) (p : Fin 2048) (l : Fin 256) :
    (blockAt m c 1 t : S2048x256.Idx → EReal) (ix2 p l) = m ((c : Thread nD τ).loc main_arg1) (ix2 (rowOf t p) l) := by
  rw [← atEntry_arg1 m c]
  show atEntry m c main_arg1 (((cfg0.win 1).blk t).view.emb (ix2 p l)) = atEntry m c main_arg1 (ix2 (rowOf t p) l)
  refine congrArg _ (funext fun a => Fin.ext ?_)
  have e0 : win0_1.index t (0 : Fin 2) = t.val := (show _ ∧ _ from ⟨(idx_facts t).2.2.1, (idx_facts t).2.2.2.1⟩).1
  have e1 : win0_1.index t (1 : Fin 2) = 0 := (show _ ∧ _ from ⟨(idx_facts t).2.2.1, (idx_facts t).2.2.2.1⟩).2
  match a with
  | ⟨0, _⟩ => show win0_1.index t (0 : Fin 2) * 2048 + 1 * p.val = t.val * 2048 + p.val; rw [e0]; omega
  | ⟨1, _⟩ => show win0_1.index t (1 : Fin 2) * 256 + 1 * l.val = l.val; rw [e1]; omega

theorem whole2 (c : Dev nD) (t : Fin cfg0.N) : (blockAt m c 2 t : S256x768.Idx → EReal) = (atEntry m c main_v1 : S256x768.Idx → EReal) := by
  funext y
  show atEntry m c main_v1 (((cfg0.win 2).blk t).view.emb y) = atEntry m c main_v1 y
  refine congrArg _ (funext fun a => Fin.ext ?_)
  have e0 : win0_2.index t (0 : Fin 2) = 0 := (show _ ∧ _ from ⟨(idx_facts t).2.2.2.2.2.2.1, (idx_facts t).2.2.2.2.2.2.2.1⟩).1
  have e1 : win0_2.index t (1 : Fin 2) = 0 := (show _ ∧ _ from ⟨(idx_facts t).2.2.2.2.2.2.1, (idx_facts t).2.2.2.2.2.2.2.1⟩).2
  match a with
  | ⟨0, _⟩ => show win0_2.index t (0 : Fin 2) * 256 + 1 * (y 0).val = (y 0).val; rw [e0]; omega
  | ⟨1, _⟩ => show win0_2.index t (1 : Fin 2) * 768 + 1 * (y 1).val = (y 1).val; rw [e1]; omega

theorem whole3 (c : Dev nD) (t : Fin cfg0.N) : (blockAt m c 3 t : S256x512.Idx → EReal) = (atEntry m c main_v3 : S256x512.Idx → EReal) := by
  funext y
  show atEntry m c main_v3 (((cfg0.win 3).blk t).view.emb y) = atEntry m c main_v3 y
  refine congrArg _ (funext fun a => Fin.ext ?_)
  have e0 : win0_3.index t (0 : Fin 2) = 0 := (show _ ∧ _ from ⟨(idx_facts t).2.2.2.2.2.2.2.2.1, (idx_facts t).2.2.2.2.2.2.2.2.2.1⟩).1
  have e1 : win0_3.index t (1 : Fin 2) = 0 := (show _ ∧ _ from ⟨(idx_facts t).2.2.2.2.2.2.2.2.1, (idx_facts t).2.2.2.2.2.2.2.2.2.1⟩).2
  match a with
  | ⟨0, _⟩ => show win0_3.index t (0 : Fin 2) * 256 + 1 * (y 0).val = (y 0).val; rw [e0]; omega
  | ⟨1, _⟩ => show win0_3.index t (1 : Fin 2) * 512 + 1 * (y 1).val = (y 1).val; rw [e1]; omega

theorem whole4 (c : Dev nD) (t : Fin cfg0.N) : (blockAt m c 4 t : S256x256.Idx → EReal) = (atEntry m c main_v4 : S256x256.Idx → EReal) := by
  funext y
  show atEntry m c main_v4 (((cfg0.win 4).blk t).view.emb y) = atEntry m c main_v4 y
  refine congrArg _ (funext fun a => Fin.ext ?_)
  have e0 : win0_4.index t (0 : Fin 2) = 0 := (show _ ∧ _ from ⟨(idx_facts t).2.2.2.2.2.2.2.2.2.2.1, (idx_facts t).2.2.2.2.2.2.2.2.2.2.2.1⟩).1
  have e1 : win0_4.index t (1 : Fin 2) = 0 := (show _ ∧ _ from ⟨(idx_facts t).2.2.2.2.2.2.2.2.2.2.1, (idx_facts t).2.2.2.2.2.2.2.2.2.2.2.1⟩).2
  match a with
  | ⟨0, _⟩ => show win0_4.index t (0 : Fin 2) * 256 + 1 * (y 0).val = (y 0).val; rw [e0]; omega
  | ⟨1, _⟩ => show win0_4.index t (1 : Fin 2) * 256 + 1 * (y 1).val = (y 1).val; rw [e1]; omega

theorem whole5 (c : Dev nD) (t : Fin cfg0.N) : (blockAt m c 5 t : S1x256.Idx → EReal) = (atEntry m c main_v5 : S1x256.Idx → EReal) := by
  funext y
  show atEntry m c main_v5 (((cfg0.win 5).blk t).view.emb y) = atEntry m c main_v5 y
  refine congrArg _ (funext fun a => Fin.ext ?_)
  have e0 : win0_5.index t (0 : Fin 2) = 0 := (show _ ∧ _ from ⟨(idx_facts t).2.2.2.2.2.2.2.2.2.2.2.2.1, (idx_facts t).2.2.2.2.2.2.2.2.2.2.2.2.2.1⟩).1
  have e1 : win0_5.index t (1 : Fin 2) = 0 := (show _ ∧ _ from ⟨(idx_facts t).2.2.2.2.2.2.2.2.2.2.2.2.1, (idx_facts t).2.2.2.2.2.2.2.2.2.2.2.2.2.1⟩).2
  match a with
  | ⟨0, _⟩ => show win0_5.index t (0 : Fin 2) * 1 + 1 * (y 0).val = (y 0).val; rw [e0]; omega
  | ⟨1, _⟩ => show win0_5.index t (1 : Fin 2) * 256 + 1 * (y 1).val = (y 1).val; rw [e1]; omega

theorem whole6 (c : Dev nD) (t : Fin cfg0.N) : (blockAt m c 6 t : S1x256.Idx → EReal) = (atEntry m c main_v6 : S1x256.Idx → EReal) := by
  funext y
  show atEntry m c main_v6 (((cfg0.win 6).blk t).view.emb y) = atEntry m c main_v6 y
  refine congrArg _ (funext fun a => Fin.ext ?_)
  have e0 : win0_6.index t (0 : Fin 2) = 0 := (show _ ∧ _ from ⟨(idx_facts t).2.2.2.2.2.2.2.2.2.2.2.2.2.2.1, (idx_facts t).2.2.2.2.2.2.2.2.2.2.2.2.2.2.2.1⟩).1
  have e1 : win0_6.index t (1 : Fin 2) = 0 := (show _ ∧ _ from ⟨(idx_facts t).2.2.2.2.2.2.2.2.2.2.2.2.2.2.1, (idx_facts t).2.2.2.2.2.2.2.2.2.2.2.2.2.2.2.1⟩).2
  match a with
  | ⟨0, _⟩ => show win0_6.index t (0 : Fin 2) * 1 + 1 * (y 0).val = (y 0).val; rw [e0]; omega
  | ⟨1, _⟩ => show win0_6.index t (1 : Fin 2) * 256 + 1 * (y 1).val = (y 1).val; rw [e1]; omega

theorem whole7 (c : Dev nD) (t : Fin cfg0.N) : (blockAt m c 7 t : S1x256.Idx → EReal) = (atEntry m c main_v7 : S1x256.Idx → EReal) := by
  funext y
  show atEntry m c main_v7 (((cfg0.win 7).blk t).view.emb y) = atEntry m c main_v7 y
  refine congrArg _ (funext fun a => Fin.ext ?_)
  have e0 : win0_7.index t (0 : Fin 2) = 0 := (show _ ∧ _ from ⟨(idx_facts t).2.2.2.2.2.2.2.2.2.2.2.2.2.2.2.2.1, (idx_facts t).2.2.2.2.2.2.2.2.2.2.2.2.2.2.2.2.2⟩).1
  have e1 : win0_7.index t (1 : Fin 2) = 0 := (show _ ∧ _ from ⟨(idx_facts t).2.2.2.2.2.2.2.2.2.2.2.2.2.2.2.2.1, (idx_facts t).2.2.2.2.2.2.2.2.2.2.2.2.2.2.2.2.2⟩).2
  match a with
  | ⟨0, _⟩ => show win0_7.index t (0 : Fin 2) * 1 + 1 * (y 0).val = (y 0).val; rw [e0]; omega
  | ⟨1, _⟩ => show win0_7.index t (1 : Fin 2) * 256 + 1 * (y 1).val = (y 1).val; rw [e1]; omega

theorem bias5 (c : Dev nD) (t : Fin cfg0.N) (l : Fin 256) :
    (blockAt m c 5 t : S1x256.Idx → EReal) (ix2 (0 : Fin 1) l) = m ((c : Thread nD τ).loc main_arg8) (ix1 l) := by
  have e : (atEntry m c main_v5 : S1x256.Idx → EReal) = shapeCast S1x256 (m ((c : Thread nD τ).loc main_arg8)) Gen.shapeCasts_S256_S1x256 := by
    dsimp only [atEntry]
    simp only [hostOps0, List.flatten_cons, List.flatten_nil, List.append_nil, List.cons_append, List.nil_append]
    after_results
    rfl
  rw [whole5, e]
  exact shapeCast_apply _ _ (ix2 (0 : Fin 1) l) (ix1 l) (by
    rw [Shape.rowMajor_val_one, Shape.rowMajor_val_two]; show l.val = 0 * 256 + l.val; omega)

theorem bias6 (c : Dev nD) (t : Fin cfg0.N) (l : Fin 256) :
    (blockAt m c 6 t : S1x256.Idx → EReal) (ix2 (0 : Fin 1) l) = m ((c : Thread nD τ).loc main_arg9) (ix1 l) := by
  have e : (atEntry m c main_v6 : S1x256.Idx → EReal) = shapeCast S1x256 (m ((c : Thread nD τ).loc main_arg9)) Gen.shapeCasts_S256_S1x256 := by
    dsimp only [atEntry]
    simp only [hostOps0, List.flatten_cons, List.flatten_nil, List.append_nil, List.cons_append, List.nil_append]
    after_results
    rfl
  rw [whole6, e]
  exact shapeCast_apply _ _ (ix2 (0 : Fin 1) l) (ix1 l) (by
    rw [Shape.rowMajor_val_one, Shape.rowMajor_val_two]; show l.val = 0 * 256 + l.val; omega)

theorem bias7 (c : Dev nD) (t : Fin cfg0.N) (l : Fin 256) :
    (blockAt m c 7 t : S1x256.Idx → EReal) (ix2 (0 : Fin 1) l) = m ((c : Thread nD τ).loc main_arg10) (ix1 l) := by
  have e : (atEntry m c main_v7 : S1x256.Idx → EReal) = shapeCast S1x256 (m ((c : Thread nD τ).loc main_arg10)) Gen.shapeCasts_S256_S1x256 := by
    dsimp only [atEntry]
    simp only [hostOps0, List.flatten_cons, List.flatten_nil, List.append_nil, List.cons_append, List.nil_append]
    after_results
    rfl
  rw [whole7, e]
  exact shapeCast_apply _ _ (ix2 (0 : Fin 1) l) (ix1 l) (by
    rw [Shape.rowMajor_val_one, Shape.rowMajor_val_two]; show l.val = 0 * 256 + l.val; omega)

/-! ## What each point writes back, and the array they fill -/

/-- The result: the cell on every row of the arguments. -/
def result (c : Dev nD) : S65536x256.Idx → EReal :=
  cellArray (m ((c : Thread nD τ).loc main_arg0)) (m ((c : Thread nD τ).loc main_arg1)) (Wc m c) (Uc m c)
    (m ((c : Thread nD τ).loc main_arg7)) (m ((c : Thread nD τ).loc main_arg8)) (m ((c : Thread nD τ).loc main_arg9))
    (m ((c : Thread nD τ).loc main_arg10))

theorem hz : (![0, 0] : Fin 2 → Nat) = fun _ => 0 := funext fun a => by fin_cases a <;> rfl

/-- Point t writes back block t of the result. -/
theorem written_back (c : Dev nD) (t : Fin cfg0.N) :
    (proofData m 0 c).flushed 8 t = ((cfg0.win 8).blk t).view.read (Elt Ideal) (result m c) := by
  show (cfg0.win 8).cut (grid0.coords t) ((proofData m 0 c).after 8 t) = _
  rw [after8]
  unfold cellBlock
  rw [View.canon_unit_zero hz]
  simp only [View.ld_unit_zero (S := S2048x256) hz, View.ld_unit_zero (S := S256x768) hz, View.ld_unit_zero (S := S256x512) hz,
    View.ld_unit_zero (S := S256x256) hz, View.ld_unit_zero (S := S1x256) hz]
  funext y
  obtain ⟨p, q, rfl⟩ : ∃ (p : Fin 2048) (q : Fin 256), y = ix2 p q := ⟨y 0, y 1, eq_ix2 y⟩
  show k0_pay1 (k0_pay4 (blockAt m c 0 t) (blockAt m c 1 t) (blockAt m c 2 t) (blockAt m c 3 t) (blockAt m c 5 t) (blockAt m c 4 t) (blockAt m c 7 t))
      (k0_pay5 (blockAt m c 0 t) (blockAt m c 1 t) (blockAt m c 2 t) (blockAt m c 3 t) (blockAt m c 5 t) (blockAt m c 6 t) (blockAt m c 4 t) (blockAt m c 7 t)) (ix2 p q)
    = result m c (((cfg0.win 8).blk t).view.emb (ix2 p q))
  rw [block_at]
  have e0 : win0_8.index t (0 : Fin 2) = t.val := (show _ ∧ _ from ⟨(idx_facts t).2.2.2.2.1, (idx_facts t).2.2.2.2.2.1⟩).1
  have e1 : win0_8.index t (1 : Fin 2) = 0 := (show _ ∧ _ from ⟨(idx_facts t).2.2.2.2.1, (idx_facts t).2.2.2.2.2.1⟩).2
  have hi0 : (((cfg0.win 8).blk t).view.emb (ix2 p q)) 0 = rowOf t p := Fin.ext (by
    show win0_8.index t (0 : Fin 2) * 2048 + 1 * p.val = t.val * 2048 + p.val; rw [e0]; omega)
  have hi1 : (((cfg0.win 8).blk t).view.emb (ix2 p q)) 1 = q := Fin.ext (by
    show win0_8.index t (1 : Fin 2) * 256 + 1 * q.val = q.val; rw [e1]; omega)
  unfold result cellArray
  rw [hi0, hi1]
  simp only [rows0, rows1, whole2, whole3, whole4, bias5, bias6, bias7]
  rw [entry_W m c, entry_U m c, entry_Uh m c]

/-- An index is in point t's block iff each coordinate is in the block's range. -/
theorem mem_block (t : Fin cfg0.N) (i : S65536x256.Idx) :
    i ∈ ((cfg0.win 8).blk t).view.set ↔ ∀ a : Fin 2, win0_8.index t a * S2048x256.size a ≤ (i a).val ∧ (i a).val < win0_8.index t a * S2048x256.size a + S2048x256.size a := by
  show i ∈ ((View.whole main_v8).slice (win0_8.rect t)).set ↔ _
  rw [View.set_slice_whole, Rect.mem_set_unit]
  exact Iff.rfl

/-- Every index of the result array is in the block of the point its row falls in. -/
theorem covered (i : S65536x256.Idx) : ∃ t : Fin cfg0.N, (cfg0.win 8).flush t = true ∧ i ∈ ((cfg0.win 8).blk t).view.set := by
  have hi0 : (i 0).val < 65536 := (i 0).isLt
  have hi1 : (i 1).val < 256 := (i 1).isLt
  obtain ⟨t, ht⟩ : ∃ t : Fin cfg0.N, t.val = (i 0).val / 2048 := ⟨⟨(i 0).val / 2048, by rw [show cfg0.N = 32 from N_0]; omega⟩, rfl⟩
  have e0 : win0_8.index t (0 : Fin 2) = t.val := (show _ ∧ _ from ⟨(idx_facts t).2.2.2.2.1, (idx_facts t).2.2.2.2.2.1⟩).1
  have e1 : win0_8.index t (1 : Fin 2) = 0 := (show _ ∧ _ from ⟨(idx_facts t).2.2.2.2.1, (idx_facts t).2.2.2.2.2.1⟩).2
  refine ⟨t, flush0_8 t, ?_⟩
  rw [mem_block]
  intro a
  match a with
  | ⟨0, _⟩ => show win0_8.index t (0 : Fin 2) * 2048 ≤ (i 0).val ∧ (i 0).val < win0_8.index t (0 : Fin 2) * 2048 + 2048; rw [e0, ht]; omega
  | ⟨1, _⟩ => show win0_8.index t (1 : Fin 2) * 256 ≤ (i 1).val ∧ (i 1).val < win0_8.index t (1 : Fin 2) * 256 + 256; rw [e1]; omega

/-- The result array after the run. -/
theorem result_array (c : Dev nD) : (proofData m 0 c).arrAt 8 cfg0.N = result m c :=
  (proofData m 0 c).arrAt_eq_of_cover 8 (result m c) (fun t _ => written_back m c t) covered

/-! ## The run -/

/-- Every weakly fair execution of @main terminates without a fault, with the result array at the cell applied to every
    row of the arguments and every argument array as launched. -/
theorem run : θ_run defs (onTc (τ := τ) (main (F := Ideal))) ⟨m, fun _ => 0, ρ⟩ fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).1 8).trans (result_array m c), args_kept m (proofData m) (proofData_A m) r h c⟩)
    (run_main m ρ)

end Cert.KernelIdeal.GruValue

end
-- ==== Proof.RefStages.lean ====
/-
  The reference, stage by stage, is the cell applied to every row. Its 43 host operations build the two concatenated
  weight matrices, three matrix products, five column slices, three bias rows broadcast to every row, σ spelt as
  1 / (1 + e^(−t)) with the constant one broadcast from a scalar, tanh, and the final combination. Read at an index
  (i, j), a slice shifts the column, a broadcast forgets the row, a matrix product is the sum over the shared axis, and
  the expression that remains is entry j of the cell on rows i of the state and the input.
-/
import proofs.«180699_j75531294867991_2_alg».proof.Proof.Gen.ReferenceIdeal.Run
import proofs.«180699_j75531294867991_2_alg».proof.Proof.Gen.ReferenceIdeal.Read
import proofs.«180699_j75531294867991_2_alg».proof.Proof.Cell
import Idealize.ShloMosaic.Lib.ValueIdx
import Idealize.ShloMosaic.PureOps.Ideal.Laws

set_option maxRecDepth 16384

noncomputable section

namespace Cert.ReferenceIdeal.Gru

open Cert.ReferenceIdeal Cert.ReferenceIdeal.Read Cert.GruCell
open Idealize.ShloMosaic Idealize.ShloMosaic.ValueIdx
open scoped BigOperators

/-! ## Where each stage reads its operands: the composed index maps, coordinate by coordinate -/

theorem l2 (j : S65536x768.Idx) (k : Fin 256) : lidx_main_v2 j k = ix2 (n0 := 65536) (n1 := 256) (j 0) k :=
  funext fun a => Fin.ext (by match a with | ⟨0, _⟩ => rfl | ⟨1, _⟩ => rfl)
theorem r2 (j : S65536x768.Idx) (k : Fin 256) : ridx_main_v2 j k = ix2 (n0 := 256) (n1 := 768) k (j 1) :=
  funext fun a => Fin.ext (by match a with | ⟨0, _⟩ => rfl | ⟨1, _⟩ => rfl)
theorem l3 (j : S65536x512.Idx) (k : Fin 256) : lidx_main_v3 j k = ix2 (n0 := 65536) (n1 := 256) (j 0) k :=
  funext fun a => Fin.ext (by match a with | ⟨0, _⟩ => rfl | ⟨1, _⟩ => rfl)
theorem r3 (j : S65536x512.Idx) (k : Fin 256) : ridx_main_v3 j k = ix2 (n0 := 256) (n1 := 512) k (j 1) :=
  funext fun a => Fin.ext (by match a with | ⟨0, _⟩ => rfl | ⟨1, _⟩ => rfl)
theorem l30 (j : S65536x256.Idx) (k : Fin 256) : lidx_main_v30 j k = ix2 (n0 := 65536) (n1 := 256) (j 0) k :=
  funext fun a => Fin.ext (by match a with | ⟨0, _⟩ => rfl | ⟨1, _⟩ => rfl)
theorem r30 (j : S65536x256.Idx) (k : Fin 256) : ridx_main_v30 j k = ix2 (n0 := 256) (n1 := 256) k (j 1) :=
  funext fun a => Fin.ext (by match a with | ⟨0, _⟩ => rfl | ⟨1, _⟩ => rfl)
theorem b8 (i : S65536x256.Idx) : idx_main_v7 (idx_main_v8 i) = ix1 (n := 256) (i 1) :=
  funext fun a => Fin.ext (by match a with | ⟨0, _⟩ => rfl)
theorem b9 (i : S65536x256.Idx) : idx_main_v19 (idx_main_v20 i) = ix1 (n := 256) (i 1) :=
  funext fun a => Fin.ext (by match a with | ⟨0, _⟩ => rfl)
theorem b10 (i : S65536x256.Idx) : idx_main_v32 (idx_main_v33 i) = ix1 (n := 256) (i 1) :=
  funext fun a => Fin.ext (by match a with | ⟨0, _⟩ => rfl)

/-- The float pattern of 1.0 denotes the real number one. -/
theorem one_f32 : Ideal.ofBits .f32 0x3F800000#32 = 1 := IdealRules.sign_bit.ideal_onePat .f32

/-! ## The two wide products, entry by entry -/

theorem xW_at (x1 : (⟨S65536x256, .f32⟩ : BufTy).Contents (Elt Ideal)) (x2 x3 x4 : (⟨S256x256, .f32⟩ : BufTy).Contents (Elt Ideal)) (j : S65536x768.Idx) :
    val_main_v2 (F := Ideal) x1 x2 x3 x4 j = dotW (fun l => x1 (ix2 (j 0) l)) (val_main_v0 (F := Ideal) x2 x3 x4) (j 1) := by
  rw [val_main_v2_apply]
  simp only [l2, r2]
  rfl

theorem hU_at (x0 : (⟨S65536x256, .f32⟩ : BufTy).Contents (Elt Ideal)) (x5 x6 : (⟨S256x256, .f32⟩ : BufTy).Contents (Elt Ideal)) (j : S65536x512.Idx) :
    val_main_v3 (F := Ideal) x0 x5 x6 j = dotU (fun l => x0 (ix2 (j 0) l)) (val_main_v1 (F := Ideal) x5 x6) (j 1) := by
  rw [val_main_v3_apply]
  simp only [l3, r3]
  rfl

/-! ## The gates and the candidate -/

/-- Stage 15 (one over one plus the exponential of minus the pre-activation) is the reset gate. -/
theorem reset_at (x0 x1 : (⟨S65536x256, .f32⟩ : BufTy).Contents (Elt Ideal)) (x2 x3 x4 x5 x6 : (⟨S256x256, .f32⟩ : BufTy).Contents (Elt Ideal)) (x8 : (⟨S256, .f32⟩ : BufTy).Contents (Elt Ideal)) (i : S65536x256.Idx) :
    val_main_v15 (F := Ideal) x0 x1 x2 x3 x4 x5 x6 x8 i
      = resetGate (fun l => x0 (ix2 (i 0) l)) (fun l => x1 (ix2 (i 0) l)) (val_main_v0 (F := Ideal) x2 x3 x4) (val_main_v1 (F := Ideal) x5 x6)
          (fun l => x8 (ix1 l)) (i 1) := by
  rw [val_main_v15_apply, val_main_v14_apply, val_main_cst_0_apply, val_main_v13_apply, val_main_v12_apply, val_main_cst_apply,
    val_main_v11_apply, val_main_v10_apply, val_main_v9_apply, val_main_v8_apply, val_main_v7_apply, val_main_v6_apply,
    val_main_v5_apply, val_main_v4_apply, xW_at, hU_at, b8]
  simp only [Ideal.addf_def, Ideal.subf_def, Ideal.mulf_def, Ideal.negf_def, Ideal.hostNegf_def, Ideal.hostDivf_def, Ideal.hostUnary_exp_def, Ideal.hostUnary_tanh_def, Ideal.ofBits_def, one_f32]
  rfl

/-- Stage 27 likewise is the update gate. -/
theorem update_at (x0 x1 : (⟨S65536x256, .f32⟩ : BufTy).Contents (Elt Ideal)) (x2 x3 x4 x5 x6 : (⟨S256x256, .f32⟩ : BufTy).Contents (Elt Ideal)) (x9 : (⟨S256, .f32⟩ : BufTy).Contents (Elt Ideal)) (i : S65536x256.Idx) :
    val_main_v27 (F := Ideal) x0 x1 x2 x3 x4 x5 x6 x9 i
      = updateGate (fun l => x0 (ix2 (i 0) l)) (fun l => x1 (ix2 (i 0) l)) (val_main_v0 (F := Ideal) x2 x3 x4) (val_main_v1 (F := Ideal) x5 x6)
          (fun l => x9 (ix1 l)) (i 1) := by
  rw [val_main_v27_apply, val_main_v26_apply, val_main_cst_2_apply, val_main_v25_apply, val_main_v24_apply, val_main_cst_1_apply,
    val_main_v23_apply, val_main_v22_apply, val_main_v21_apply, val_main_v20_apply, val_main_v19_apply, val_main_v18_apply,
    val_main_v17_apply, val_main_v16_apply, xW_at, hU_at, b9]
  simp only [Ideal.addf_def, Ideal.subf_def, Ideal.mulf_def, Ideal.negf_def, Ideal.hostNegf_def, Ideal.hostDivf_def, Ideal.hostUnary_exp_def, Ideal.hostUnary_tanh_def, Ideal.ofBits_def, one_f32]
  rfl

/-- Stage 30, the product of the gated state with the candidate's weights, entry by entry. -/
theorem gated_at (x0 x1 : (⟨S65536x256, .f32⟩ : BufTy).Contents (Elt Ideal)) (x2 x3 x4 x5 x6 x7 : (⟨S256x256, .f32⟩ : BufTy).Contents (Elt Ideal)) (x8 : (⟨S256, .f32⟩ : BufTy).Contents (Elt Ideal)) (i : S65536x256.Idx) :
    val_main_v30 (F := Ideal) x0 x1 x2 x3 x4 x5 x6 x7 x8 i
      = dotH (fun l => x0 (ix2 (i 0) l) * resetGate (fun l => x0 (ix2 (i 0) l)) (fun l => x1 (ix2 (i 0) l))
          (val_main_v0 (F := Ideal) x2 x3 x4) (val_main_v1 (F := Ideal) x5 x6) (fun l => x8 (ix1 l)) l) x7 (i 1) := by
  rw [val_main_v30_apply]
  unfold dotH
  refine Finset.sum_congr rfl fun k _ => ?_
  rw [l30, r30, val_main_v29_apply, reset_at]
  rfl

/-- Stage 35 is the candidate state. -/
theorem candidate_at (x0 x1 : (⟨S65536x256, .f32⟩ : BufTy).Contents (Elt Ideal)) (x2 x3 x4 x5 x6 x7 : (⟨S256x256, .f32⟩ : BufTy).Contents (Elt Ideal)) (x8 x10 : (⟨S256, .f32⟩ : BufTy).Contents (Elt Ideal)) (i : S65536x256.Idx) :
    val_main_v35 (F := Ideal) x0 x1 x2 x3 x4 x5 x6 x7 x8 x10 i
      = candidate (fun l => x0 (ix2 (i 0) l)) (fun l => x1 (ix2 (i 0) l)) (val_main_v0 (F := Ideal) x2 x3 x4) (val_main_v1 (F := Ideal) x5 x6) x7
          (fun l => x8 (ix1 l)) (fun l => x10 (ix1 l)) (i 1) := by
  rw [val_main_v35_apply, val_main_v34_apply, val_main_v33_apply, val_main_v32_apply, val_main_v31_apply, val_main_v28_apply,
    xW_at, gated_at, b10]
  simp only [Ideal.addf_def, Ideal.subf_def, Ideal.mulf_def, Ideal.negf_def, Ideal.hostNegf_def, Ideal.hostDivf_def, Ideal.hostUnary_exp_def, Ideal.hostUnary_tanh_def, Ideal.ofBits_def, one_f32]
  rfl

/-! ## The result -/

/-- The last stage, as a function of the eleven arguments, is the cell on every row, over the two concatenated
    weight matrices as the first two stages build them. -/
theorem result_eq (x0 x1 : (⟨S65536x256, .f32⟩ : BufTy).Contents (Elt Ideal)) (x2 x3 x4 x5 x6 x7 : (⟨S256x256, .f32⟩ : BufTy).Contents (Elt Ideal))
    (x8 x9 x10 : (⟨S256, .f32⟩ : BufTy).Contents (Elt Ideal)) :
    val_main_v38 (F := Ideal) x0 x1 x2 x3 x4 x5 x6 x7 x8 x9 x10
      = cellArray x0 x1 (val_main_v0 (F := Ideal) x2 x3 x4) (val_main_v1 (F := Ideal) x5 x6) x7 x8 x9 x10 := by
  funext i
  obtain ⟨a, b, rfl⟩ : ∃ (a : Fin 65536) (b : Fin 256), i = ix2 a b := ⟨i 0, i 1, eq_ix2 i⟩
  rw [val_main_v38_apply, val_main_v37_apply, val_main_v36_apply, candidate_at, update_at]
  simp only [Ideal.addf_def, Ideal.subf_def, Ideal.mulf_def, Ideal.negf_def, Ideal.hostNegf_def, Ideal.hostDivf_def, Ideal.hostUnary_exp_def, Ideal.hostUnary_tanh_def, Ideal.ofBits_def, one_f32]
  rfl

end Cert.ReferenceIdeal.Gru

end
-- ==== Proof.lean ====
/-
  A single GRU-cell step, kernel against reference, on the extended reals.
  Both programs compute, for every row i of the state array h and the input array x,
      r = σ(x·[W_r|W_z|W_h] restricted to its first 256 columns + h·[U_r|U_z] restricted likewise + b_r),
      z = σ(the same over the second 256 columns + b_z),
      c = tanh(x·W over the last 256 columns + (h ⊙ r)·U_h + b_h),
      out = c + z · (h − c).
  The kernel does it 2048 rows at a time in one pallas_call over 32 grid points, with the weights cast to bf16 on the
  host and the activations cast before each matrix product, σ as one operation, and three matrix products into zero
  accumulators; the reference does it on whole arrays with σ spelt 1 / (1 + e^(−t)). On the extended reals a change of
  float format is the identity, σ is by definition that quotient, and a matrix product of either kind is the plain sum
  over the shared axis, so both are the same function, entry by entry: `Cert.GruCell.cellArray` (Proof/Cell.lean). No
  step uses a law that fails at an infinity, so the precondition is never opened.
  The parts: Proof/FrameBits.lean and Proof/FrameIdeal.lean (each program runs to the end, faults nowhere, keeps its
  arguments; what the body leaves in its output buffer), Proof/KernelCell.lean (that buffer is the cell on the block's
  rows), Proof/KernelValue.lean (the blocks written back fill the result array with `cellArray`), Proof/RefStages.lean
  (the reference's last stage is `cellArray`), and the five claims below.
-/
import proofs.«180699_j75531294867991_2_alg».proof.Defs
import proofs.«180699_j75531294867991_2_alg».proof.Proof.Gen.Kernel
import proofs.«180699_j75531294867991_2_alg».proof.Proof.Gen.KernelIdeal
import proofs.«180699_j75531294867991_2_alg».proof.Proof.Gen.ReferenceIdeal
import proofs.«180699_j75531294867991_2_alg».proof.Proof.Gen.Pre_finite_inputs
import proofs.«180699_j75531294867991_2_alg».proof.Proof.FrameBits
import proofs.«180699_j75531294867991_2_alg».proof.Proof.FrameIdeal
import proofs.«180699_j75531294867991_2_alg».proof.Proof.KernelValue
import proofs.«180699_j75531294867991_2_alg».proof.Proof.RefStages
import Idealize.ShloMosaic.Adequacy
import Idealize.ShloMosaic.Init

noncomputable section

namespace Cert.Proof

open Idealize.ShloMosaic Idealize.SL.Sem

/-- The kernel as printed runs to the end, faults nowhere and keeps its arguments. -/
theorem frame_kernel : Cert.frame_Kernel := fun m ρ _ => Cert.Kernel.Gru.frame m ρ

/-- So does its reading on the extended reals. -/
theorem frame_kernelIdeal : Cert.frame_KernelIdeal := fun m ρ _ => Cert.KernelIdeal.Gru.frame m ρ

/-- The reference is host operations only: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the cell applied to every row: the kernel's result
    array by the blocks it writes back, the reference's by its stages; the two concatenated weight matrices are the same
    terms of the same arguments on both sides. -/
theorem algebraic : Cert.algebraic_KernelIdeal_ReferenceIdeal := by
  intro m ρ m' ρ' _ hagree
  refine ⟨fun c => Cert.KernelIdeal.GruValue.result m c, Cert.KernelIdeal.GruValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, Cert.ReferenceIdeal.Gru.result_eq]
  obtain ⟨h0, h1, h2, h3, h4, h5, h6, h7, h8, h9, h10⟩ := hagree c
  rw [h0, h1, h2, h3, h4, h5, h6, h7, h8, h9, h10]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
